-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x12 : Shape := ⟨2, ![4194304, 12]⟩
abbrev S16x4 : Shape := ⟨2, ![16, 4]⟩
abbrev S16 : Shape := ⟨1, ![16]⟩
abbrev S2x4 : Shape := ⟨2, ![2, 4]⟩
abbrev S2 : Shape := ⟨1, ![2]⟩
abbrev S_ : Shape := ⟨0, ![]⟩

class Facts : Prop where
  bcast_S_S4194304x12 : S_.BroadcastsInDim S4194304x12 (![] : Fin 0 → Fin S4194304x12.rank)
  reducesTo_S4194304x12_S_d0_1 : S4194304x12.ReducesTo [0, 1] S_
  h_S_ : 0 < S_.numel
  bcast_S_S16x4 : S_.BroadcastsInDim S16x4 (![] : Fin 0 → Fin S16x4.rank)
  reducesTo_S16x4_S_d0_1 : S16x4.ReducesTo [0, 1] S_
  bcast_S_S16 : S_.BroadcastsInDim S16 (![] : Fin 0 → Fin S16.rank)
  reducesTo_S16_S_d0 : S16.ReducesTo [0] S_
  bcast_S_S2x4 : S_.BroadcastsInDim S2x4 (![] : Fin 0 → Fin S2x4.rank)
  reducesTo_S2x4_S_d0_1 : S2x4.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S16 .f32) (main_arg5 : FVec F S2x4 .f32) (main_arg6 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S2x4 .f32 := Host.absf main_arg5
  let main_cst_8 : FVec F S_ .f32 := constant S_ .f32 0x7F800000#32
  let main_v25 : FVec F S2x4 .f32 := broadcastInDim S2x4 ![] bcast_S_S2x4 main_cst_8
  let main_v26 : IVec S2x4 1 := cmpf .olt main_v24 main_v25
  let main_c_9 : IVec S_ 1 := constantI S_ 1 1#1
  let main_v27 : IVec S_ 1 := (fun x v => Host.reduce IntOp.andi x v reducesTo_S2x4_S_d0_1 h_S_) main_v26 main_c_9
  let main_v28 : IVec S_ 1 := andi main_v23 main_v27
  let main_v29 : FVec F S2 .f32 := Host.absf main_arg6
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S4194304x12 .f32) (main_arg1 : FVec F S16x4 .f32) (main_arg2 : FVec F S16x4 .f32) (main_arg3 : FVec F S16 .f32) (main_arg4 : FVec F S16 .f32) (main_arg5 : FVec F S2x4 .f32) (main_arg6 : FVec F S2 .f32) : IVec S_ 1 :=
  let main_v0 : FVec F S4194304x12 .f32 := Host.absf main_arg0
  let main_cst : FVec F S_ .f32 := constant S_ .f32 0x7F800000#32
  let main_v1 : FVec F S4194304x12 .f32 := broadcastInDim S4194304x12 ![] bcast_S_S4194304x12 main_cst
  let main_v2 : IVec S4194304x12 1 := cmpf .olt main_v0 main_v1
  let main_c : IVec S_ 1 := constantI S_ 1 1#1
  let main_v3 : IVec S_ 1 := (fun x v => Host.reduce IntOp.andi x v reducesTo_S4194304x12_S_d0_1 h_S_) main_v2 main_c
  let main_v4 : FVec F S16x4 .f32 := Host.absf main_arg1
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S16x4 .f32 := Host.absf main_arg2
  let main_cst_2 : FVec F S_ .f32 := constant S_ .f32 0x7F800000#32
  let main_v10 : FVec F S16x4 .f32 := broadcastInDim S16x4 ![] bcast_S_S16x4 main_cst_2
  let main_v11 : IVec S16x4 1 := cmpf .olt main_v9 main_v10
  let main_c_3 : IVec S_ 1 := constantI S_ 1 1#1
  let main_v12 : IVec S_ 1 := (fun x v => Host.reduce IntOp.andi x v reducesTo_S16x4_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_v13 main_v16
-- ==== Kernel.lean ====
abbrev S4194304x12 : Shape := ⟨2, ![4194304, 12]⟩
abbrev S16x4 : Shape := ⟨2, ![16, 4]⟩
abbrev S16 : Shape := ⟨1, ![16]⟩
abbrev S2x4 : Shape := ⟨2, ![2, 4]⟩
abbrev S2 : Shape := ⟨1, ![2]⟩
abbrev S4194304x2 : Shape := ⟨2, ![4194304, 2]⟩
abbrev S4194304x8 : Shape := ⟨2, ![4194304, 8]⟩
abbrev S4096x12 : Shape := ⟨2, ![4096, 12]⟩
abbrev S4096x2 : Shape := ⟨2, ![4096, 2]⟩
abbrev S4096x8 : Shape := ⟨2, ![4096, 8]⟩
abbrev S4096x4 : Shape := ⟨2, ![4096, 4]⟩
abbrev S4x16 : Shape := ⟨2, ![4, 16]⟩
abbrev S4096x16 : Shape := ⟨2, ![4096, 16]⟩
abbrev S1x16 : Shape := ⟨2, ![1, 16]⟩
abbrev S4x2 : Shape := ⟨2, ![4, 2]⟩
abbrev S1x2 : Shape := ⟨2, ![1, 2]⟩
abbrev S4096 : Shape := ⟨1, ![4096]⟩
abbrev S4096x1 : Shape := ⟨2, ![4096, 1]⟩

abbrev nBuf : Space → Nat
  | .hbm => 9
  | .vmem => 12
  | .smem => 0
  | _ => 0

abbrev bufTy : (tb : Table) → Fin (tcTables nBuf tb) → BufTy
  | .hbm, ⟨0, _⟩ => ⟨S4194304x12, .f32⟩
  | .hbm, ⟨1, _⟩ => ⟨S16x4, .f32⟩
  | .hbm, ⟨2, _⟩ => ⟨S16x4, .f32⟩
  | .hbm, ⟨3, _⟩ => ⟨S16, .f32⟩
  | .hbm, ⟨4, _⟩ => ⟨S16, .f32⟩
  | .hbm, ⟨5, _⟩ => ⟨S2x4, .f32⟩
  | .hbm, ⟨6, _⟩ => ⟨S2, .f32⟩
  | .hbm, ⟨7, _⟩ => ⟨S4194304x2, .f32⟩
  | .hbm, ⟨8, _⟩ => ⟨S4194304x8, .f32⟩
  | .local _ .vmem, ⟨0, _⟩ => ⟨S4096x12, .f32⟩
  | .local _ .vmem, ⟨1, _⟩ => ⟨S4096x12, .f32⟩
  | .local _ .vmem, ⟨2, _⟩ => ⟨S16x4, .f32⟩
  | .local _ .vmem, ⟨3, _⟩ => ⟨S16x4, .f32⟩
  | .local _ .vmem, ⟨4, _⟩ => ⟨S16, .f32⟩
  | .local _ .vmem, ⟨5, _⟩ => ⟨S16, .f32⟩
  | .local _ .vmem, ⟨6, _⟩ => ⟨S2x4, .f32⟩
  | .local _ .vmem, ⟨7, _⟩ => ⟨S2, .f32⟩
  | .local _ .vmem, ⟨8, _⟩ => ⟨S4096x2, .f32⟩
  | .local _ .vmem, ⟨9, _⟩ => ⟨S4096x2, .f32⟩
  | .local _ .vmem, ⟨10, _⟩ => ⟨S4096x8, .f32⟩
  | .local _ .vmem, ⟨11, _⟩ => ⟨S4096x8, .f32⟩
  | _, _ => ⟨S4194304x12, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  inb_S4096x12_S4096x12_0_0 : ∀ a, (![0, 0] : Fin 2 → Nat) a + S4096x12.size a ≤ S4096x12.size a
  h_S4096x12 : 0 < S4096x12.numel
  slices_S4096x12_o0_0_S4096x4 : S4096x12.Slices ![0, 0] S4096x4
  slices_S4096x12_o0_4_S4096x4 : S4096x12.Slices ![0, 4] S4096x4
  slices_S4096x12_o0_8_S4096x4 : S4096x12.Slices ![0, 8] S4096x4
  inb_S16x4_S16x4_0_0 : ∀ a, (![0, 0] : Fin 2 → Nat) a + S16x4.size a ≤ S16x4.size a
  h_S16x4 : 0 < S16x4.numel
  inb_S16_S16_0 : ∀ a, (![0] : Fin 1 → Nat) a + S16.size a ≤ S16.size a
  h_S16 : 0 < S16.numel
  transposes_S16x4_p1_0_S4x16 : S16x4.Transposes [1, 0] S4x16
  shapeCasts_S16_S1x16 : S16.ShapeCasts S1x16
  broadcasts_S1x16_S4096x16 : S1x16.Broadcasts S4096x16
  slices_S4096x16_o0_0_S4096x4 : S4096x16.Slices ![0, 0] S4096x4
  slices_S4096x16_o0_4_S4096x4 : S4096x16.Slices ![0, 4] S4096x4
  slices_S4096x16_o0_8_S4096x4 : S4096x16.Slices ![0, 8] S4096x4
  slices_S4096x16_o0_12_S4096x4 : S4096x16.Slices ![0, 12] S4096x4
  inb_S2x4_S2x4_0_0 : ∀ a, (![0, 0] : Fin 2 → Nat) a + S2x4.size a ≤ S2x4.size a
  h_S2x4 : 0 < S2x4.numel
  inb_S2_S2_0 : ∀ a, (![0] : Fin 1 → Nat) a + S2.size a ≤ S2.size a
  h_S2 : 0 < S2.numel
  transposes_S2x4_p1_0_S4x2 : S2x4.Transposes [1, 0] S4x2
  shapeCasts_S2_S1x2 : S2.ShapeCasts S1x2
  broadcasts_S1x2_S4096x2 : S1x2.Broadcasts S4096x2
  reduces_S4096x2_S4096 : S4096x2.Reduces [1] S4096
  shapeCasts_S4096_S4096x1 : S4096.ShapeCasts S4096x1
  broadcasts_S4096x1_S4096x2 : S4096x1.Broadcasts S4096x2
  inb_S4096x2_S4096x2_0_0 : ∀ a, (![0, 0] : Fin 2 → Nat) a + S4096x2.size a ≤ S4096x2.size a
  h_S4096x2 : 0 < S4096x2.numel
  inb_S4096x8_S4096x4_0_0 : ∀ a, (![0, 0] : Fin 2 → Nat) a + S4096x4.size a ≤ S4096x8.size a
  h_S4096x4 : 0 < S4096x4.numel
  inb_S4096x8_S4096x4_0_4 : ∀ a, (![0, 4] : Fin 2 → Nat) a + S4096x4.size a ≤ S4096x8.size a
  dot_S4096x4_S4x16_S4096x16_1_0_0_1_n_n_wf : DotDims.WF S4096x4 S4x16 S4096x16 [1] [0] [0] [1] [] []
  dot_S4096x4_S4x2_S4096x2_1_0_0_1_n_n_wf : DotDims.WF S4096x4 S4x2 S4096x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x12.size a ≤ S4194304x12.size a
  hwx0_0 : ∀ i : grid0.Coords, EltTy.bits .f32 = 32 ∨ (Rect.block (s := S4194304x12) S4096x12.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4.size a ≤ S16x4.size a
  hwx0_1 : ∀ i : grid0.Coords, EltTy.bits .f32 = 32 ∨ (Rect.block (s := S16x4) S16x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4.size a ≤ S16x4.size a
  hwx0_2 : ∀ i : grid0.Coords, EltTy.bits .f32 = 32 ∨ (Rect.block (s := S16x4) S16x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16.size a ≤ S16.size a
  hwx0_3 : ∀ i : grid0.Coords, EltTy.bits .f32 = 32 ∨ (Rect.block (s := S16) S16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x4.size a ≤ S2x4.size a
  hwx0_5 : ∀ i : grid0.Coords, EltTy.bits .f32 = 32 ∨ (Rect.block (s := S2x4) S2x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2.size a ≤ S2.size a
  hwx0_6 : ∀ i : grid0.Coords, EltTy.bits .f32 = 32 ∨ (Rect.block (s := S2) S2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x2.size a ≤ S4194304x2.size a
  hwx0_7 : ∀ i : grid0.Coords, EltTy.bits .f32 = 32 ∨ (Rect.block (s := S4194304x2) S4096x2.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4096x8.size a ≤ S4194304x8.size a
  hwx0_8 : ∀ i : grid0.Coords, EltTy.bits .f32 = 32 ∨ (Rect.block (s := S4194304x8) S4096x8.size (cc0_transform_8 i) (hinb0_8 i)).WholeWords (EltTy.packing .f32)

variable [Facts₀]

def dot_S4096x4_S4x16_S4096x16_1_0_0_1_n_n : DotDims S4096x4 S4x16 S4096x16 where
  lhsContracting := [1]
  rhsContracting := [0]
  lhsNonContracting := [0]
  rhsNonContracting := [1]
  lhsBatch := []
  rhsBatch := []
  wf := dot_S4096x4_S4x16_S4096x16_1_0_0_1_n_n_wf
def dot_S4096x4_S4x2_S4096x2_1_0_0_1_n_n : DotDims S4096x4 S4x2 S4096x2 where
  lhsContracting := [1]
  rhsContracting := [0]
  lhsNonContracting := [0]
  rhsNonContracting := [1]
  lhsBatch := []
  rhsBatch := []
  wf := dot_S4096x4_S4x2_S4096x2_1_0_0_1_n_n_wf

abbrev win0_0 : Pipeline.Window sig grid0 :=
  Pipeline.Window.ofSpec (Memref.whole main_arg0) S4096x12.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S4096x2.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S4096x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4194304x12 : Shape := ⟨2, ![4194304, 12]⟩
abbrev S16x4 : Shape := ⟨2, ![16, 4]⟩
abbrev S16 : Shape := ⟨1, ![16]⟩
abbrev S2x4 : Shape := ⟨2, ![2, 4]⟩
abbrev S2 : Shape := ⟨1, ![2]⟩
abbrev S4194304x4 : Shape := ⟨2, ![4194304, 4]⟩
abbrev S4x16 : Shape := ⟨2, ![4, 16]⟩
abbrev S4194304x16 : Shape := ⟨2, ![4194304, 16]⟩
abbrev S1x16 : Shape := ⟨2, ![1, 16]⟩
abbrev S_ : Shape := ⟨0, ![]⟩
abbrev S4x2 : Shape := ⟨2, ![4, 2]⟩
abbrev S4194304x2 : Shape := ⟨2, ![4194304, 2]⟩
abbrev S1x2 : Shape := ⟨2, ![1, 2]⟩
abbrev S4194304 : Shape := ⟨1, ![4194304]⟩
abbrev S4194304x1 : Shape := ⟨2, ![4194304, 1]⟩
abbrev S4194304x8 : Shape := ⟨2, ![4194304, 8]⟩

abbrev nBuf : Space → Nat
  | .hbm => 75
  | .vmem => 0
  | .smem => 0
  | _ => 0

abbrev bufTy : (tb : Table) → Fin (tcTables nBuf tb) → BufTy
  | .hbm, ⟨0, _⟩ => ⟨S4194304x12, .f32⟩
  | .hbm, ⟨1, _⟩ => ⟨S16x4, .f32⟩
  | .hbm, ⟨2, _⟩ => ⟨S16x4, .f32⟩
  | .hbm, ⟨3, _⟩ => ⟨S16, .f32⟩
  | .hbm, ⟨4, _⟩ => ⟨S16, .f32⟩
  | .hbm, ⟨5, _⟩ => ⟨S2x4, .f32⟩
  | .hbm, ⟨6, _⟩ => ⟨S2, .f32⟩
  | .hbm, ⟨7, _⟩ => ⟨S4194304x4, .f32⟩
  | .hbm, ⟨8, _⟩ => ⟨S4194304x4, .f32⟩
  | .hbm, ⟨9, _⟩ => ⟨S4194304x4, .f32⟩
  | .hbm, ⟨10, _⟩ => ⟨S4x16, .f32⟩
  | .hbm, ⟨11, _⟩ => ⟨S4194304x16, .f32⟩
  | .hbm, ⟨12, _⟩ => ⟨S1x16, .f32⟩
  | .hbm, ⟨13, _⟩ => ⟨S4194304x16, .f32⟩
  | .hbm, ⟨14, _⟩ => ⟨S4194304x16, .f32⟩
  | .hbm, ⟨15, _⟩ => ⟨S4x16, .f32⟩
  | .hbm, ⟨16, _⟩ => ⟨S4194304x16, .f32⟩
  | .hbm, ⟨17, _⟩ => ⟨S4194304x16, .f32⟩
  | .hbm, ⟨18, _⟩ => ⟨S1x16, .f32⟩
  | .hbm, ⟨19, _⟩ => ⟨S4194304x16, .f32⟩
  | .hbm, ⟨20, _⟩ => ⟨S4194304x16, .f32⟩
  | .hbm, ⟨21, _⟩ => ⟨S4194304x4, .f32⟩
  | .hbm, ⟨22, _⟩ => ⟨S4194304x4, .f32⟩
  | .hbm, ⟨23, _⟩ => ⟨S4194304x4, .f32⟩
  | .hbm, ⟨24, _⟩ => ⟨S4194304x4, .f32⟩
  | .hbm, ⟨25, _⟩ => ⟨S4194304x4, .f32⟩
  | .hbm, ⟨26, _⟩ => ⟨S4194304x4, .f32⟩
  | .hbm, ⟨27, _⟩ => ⟨S_, .f32⟩
  | .hbm, ⟨28, _⟩ => ⟨S4194304x4, .f32⟩
  | .hbm, ⟨29, _⟩ => ⟨S4194304x4, .f32⟩
  | .hbm, ⟨30, _⟩ => ⟨S_, .f32⟩
  | .hbm, ⟨31, _⟩ => ⟨S4194304x4, .f32⟩
  | .hbm, ⟨32, _⟩ => ⟨S4194304x4, .f32⟩
  | .hbm, ⟨33, _⟩ => ⟨S4194304x4, .f32⟩
  | .hbm, ⟨34, _⟩ => ⟨S4194304x4, .f32⟩
  | .hbm, ⟨35, _⟩ => ⟨S_, .f32⟩
  | .hbm, ⟨36, _⟩ => ⟨S4194304x4, .f32⟩
  | .hbm, ⟨37, _⟩ => ⟨S4194304x4, .f32⟩
  | .hbm, ⟨38, _⟩ => ⟨S_, .f32⟩
  | .hbm, ⟨39, _⟩ => ⟨S4194304x4, .f32⟩
  | .hbm, ⟨40, _⟩ => ⟨S4194304x4, .f32⟩
  | .hbm, ⟨41, _⟩ => ⟨S4194304x4, .f32⟩
  | .hbm, ⟨42, _⟩ => ⟨S4194304x4, .f32⟩
  | .hbm, ⟨43, _⟩ => ⟨S4194304x4, .f32⟩
  | .hbm, ⟨44, _⟩ => ⟨S_, .f32⟩
  | .hbm, ⟨45, _⟩ => ⟨S4194304x4, .f32⟩
  | .hbm, ⟨46, _⟩ => ⟨S4194304x4, .f32⟩
  | .hbm, ⟨47, _⟩ => ⟨S_, .f32⟩
  | .hbm, ⟨48, _⟩ => ⟨S4194304x4, .f32⟩
  | .hbm, ⟨49, _⟩ => ⟨S4194304x4, .f32⟩
  | .hbm, ⟨50, _⟩ => ⟨S4194304x4, .f32⟩
  | .hbm, ⟨51, _⟩ => ⟨S4194304x4, .f32⟩
  | .hbm, ⟨52, _⟩ => ⟨S4194304x4, .f32⟩
  | .hbm, ⟨53, _⟩ => ⟨S4194304x4, .f32⟩
  | .hbm, ⟨54, _⟩ => ⟨S4194304x4, .f32⟩
  | .hbm, ⟨55, _⟩ => ⟨S4x2, .f32⟩
  | .hbm, ⟨56, _⟩ => ⟨S4194304x2, .f32⟩
  | .hbm, ⟨57, _⟩ => ⟨S1x2, .f32⟩
  | .hbm, ⟨58, _⟩ => ⟨S4194304x2, .f32⟩
  | .hbm, ⟨59, _⟩ => ⟨S4194304x2, .f32⟩
  | .hbm, ⟨60, _⟩ => ⟨S_, .f32⟩
  | .hbm, ⟨61, _⟩ => ⟨S4194304, .f32⟩
  | .hbm, ⟨62, _⟩ => ⟨S_, .f32⟩
  | .hbm, ⟨63, _⟩ => ⟨S4194304, .f32⟩
  | .hbm, ⟨64, _⟩ => ⟨S4194304, .f32⟩
  | .hbm, ⟨65, _⟩ => ⟨S4194304x1, .f32⟩
  | .hbm, ⟨66, _⟩ => ⟨S4194304x2, .f32⟩
  | .hbm, ⟨67, _⟩ => ⟨S4194304x2, .f32⟩
  | .hbm, ⟨68, _⟩ => ⟨S4194304x2, .f32⟩
  | .hbm, ⟨69, _⟩ => ⟨S_, .f32⟩
  | .hbm, ⟨70, _⟩ => ⟨S4194304, .f32⟩
  | .hbm, ⟨71, _⟩ => ⟨S4194304x1, .f32⟩
  | .hbm, ⟨72, _⟩ => ⟨S4194304x2, .f32⟩
  | .hbm, ⟨73, _⟩ => ⟨S4194304x2, .f32⟩
  | .hbm, ⟨74, _⟩ => ⟨S4194304x8, .f32⟩
  | _, _ => ⟨S4194304x12, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_1 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_cst_6 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_7 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩

abbrev nD : Nat := 1
abbrev τ : Topo := Topo.v7x

variable {F : FTy → Type} [FloatOps F]

class Facts₀ : Prop where
  slices_S4194304x12_S4194304x4_0_0 : S4194304x12.Slices ![0, 0] S4194304x4
  slices_S4194304x12_S4194304x4_0_4 : S4194304x12.Slices ![0, 4] S4194304x4
  slices_S4194304x12_S4194304x4_0_8 : S4194304x12.Slices ![0, 8] S4194304x4
  transposes_S16x4_S4x16_1_0 : S16x4.Transposes [1, 0] S4x16
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  slices_S4194304x16_S4194304x4_0_0 : S4194304x16.Slices ![0, 0] S4194304x4
  slices_S4194304x16_S4194304x4_0_4 : S4194304x16.Slices ![0, 4] S4194304x4
  slices_S4194304x16_S4194304x4_0_8 : S4194304x16.Slices ![0, 8] S4194304x4
  slices_S4194304x16_S4194304x4_0_12 : S4194304x16.Slices ![0, 12] S4194304x4
  bcast_S_S4194304x4 : S_.BroadcastsInDim S4194304x4 (![] : Fin 0 → Fin S4194304x4.rank)
  transposes_S2x4_S4x2_1_0 : S2x4.Transposes [1, 0] S4x2
  bcast_S2_S1x2_1 : S2.BroadcastsInDim S1x2 (![1] : Fin 1 → Fin S1x2.rank)
  bcast_S1x2_S4194304x2_0_1 : S1x2.BroadcastsInDim S4194304x2 (![0, 1] : Fin 2 → Fin S4194304x2.rank)
  reducesTo_S4194304x2_S4194304_d1 : S4194304x2.ReducesTo [1] S4194304
  h_S_ : 0 < S_.numel
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S4194304x1_S4194304x2_0_1 : S4194304x1.BroadcastsInDim S4194304x2 (![0, 1] : Fin 2 → Fin S4194304x2.rank)
  concatenates_S4194304x4_S4194304x4_S4194304x8_d1 : Shape.Concatenates [S4194304x4, S4194304x4] S4194304x8 1
  dot_S4194304x4_S4x16_S4194304x16_1_0_0_1_n_n_wf : DotDims.WF S4194304x4 S4x16 S4194304x16 [1] [0] [0] [1] [] []
  dot_S4194304x4_S4x2_S4194304x2_1_0_0_1_n_n_wf : DotDims.WF S4194304x4 S4x2 S4194304x2 [1] [0] [0] [1] [] []

variable [Facts₀]

def dot_S4194304x4_S4x16_S4194304x16_1_0_0_1_n_n : DotDims S4194304x4 S4x16 S4194304x16 where
  lhsContracting := [1]
  rhsContracting := [0]
  lhsNonContracting := [0]
  rhsNonContracting := [1]
  lhsBatch := []
  rhsBatch := []
  wf := dot_S4194304x4_S4x16_S4194304x16_1_0_0_1_n_n_wf
def dot_S4194304x4_S4x2_S4194304x2_1_0_0_1_n_n : DotDims S4194304x4 S4x2 S4194304x2 where
  lhsContracting := [1]
  rhsContracting := [0]
  lhsNonContracting := [0]
  rhsNonContracting := [1]
  lhsBatch := []
  rhsBatch := []
  wf := dot_S4194304x4_S4x2_S4194304x2_1_0_0_1_n_n_wf

class Facts : Prop extends Facts₀ where

variable [Facts]
-- ==== Proof.LibMaxReduce.lean ====
/-
  Maximum reductions of an `[a, b]` matrix over one of its two axes, read at an index, at the ideal values.

  On the extended reals a maximum reduction from a start value `s` is the running maximum `foldMax s x` of the
  reduced entries, a fold of `max` over the reduced axis's coordinates whose order does not matter. The vector unit's
  reduction and the host's one-operand reduce with a maximum body both read that way: over the LAST axis at a row `p`
  the entries are `x (p, k)`, over the FIRST axis at a column `c` they are `x (r, c)`.
  Joining the start value in once more changes nothing, since the fold is already above it.
-/
import Idealize.ShloMosaic.Lib.ValueIdx
import Idealize.ShloMosaic.PureOps.Ideal.Laws

noncomputable section

namespace Cert.LibMaxReduce

open Idealize.ShloMosaic Idealize.ShloMosaic.ValueIdx

/-- The maximum of a finite family of extended reals and a start value. -/
def foldMax {n : ℕ} (s : EReal) (x : Fin n → EReal) : EReal := (Finset.univ : Finset (Fin n)).fold max s x

/-- The running maximum is above its start value, so the maximum of the two is the running maximum. -/
theorem max_foldMax {n : ℕ} (s : EReal) (x : Fin n → EReal) : max s (foldMax s x) = foldMax s x :=
  max_eq_right ((Finset.le_fold_max s).mpr (Or.inl le_rfl))

/-- A float maximum reduction over the LAST axis of an `[a, b]` matrix, read at row `p`: the running maximum of that
    row's `b` entries from the accumulator's value. -/
theorem multiReduction_maximumf_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ)
    (p : Fin a) :
    multiReduction .maximumf [1] ⟨1, ![a]⟩ src acc h hφ hacc (ix1 p)
      = foldMax (Ideal.ofBits .f32 acc) (fun k : Fin b => src (ix2 p k)) := by
  refine (Ideal.multiReduction_maximumf_single src acc h hφ hacc (ix1 p)).trans ?_
  unfold foldMax
  refine congrArg (fun f : Fin b → EReal => Finset.fold max (Ideal.ofBits .f32 acc) f Finset.univ) (funext fun k => congrArg src ?_)
  funext ax; apply Fin.ext
  match ax with
  | ⟨0, _⟩ => rfl
  | ⟨1, _⟩ => rfl

/-- A float maximum reduction over the FIRST axis of an `[a, b]` matrix, read at column `c`: the running maximum of
    that column's `a` entries from the accumulator's value. -/
theorem multiReduction_maximumf_firstAxis_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ)
    (c : Fin b) :
    multiReduction .maximumf [0] ⟨1, ![b]⟩ src acc h hφ hacc (ix1 c)
      = foldMax (Ideal.ofBits .f32 acc) (fun r : Fin a => src (ix2 r c)) := by
  refine (Ideal.multiReduction_maximumf_single src acc h hφ hacc (ix1 c)).trans ?_
  unfold foldMax
  refine congrArg (fun f : Fin a → EReal => Finset.fold max (Ideal.ofBits .f32 acc) f Finset.univ) (funext fun r => congrArg src ?_)
  funext ax; apply Fin.ext
  match ax with
  | ⟨0, _⟩ => rfl
  | ⟨1, _⟩ => rfl

/-- The host's one-operand reduce with a maximum body over the LAST axis of an `[a, b]` matrix, read at row `p`: the
    running maximum of that row's entries from the initial value's element. -/
theorem hostReduce_maximumf_lastAxis_apply {a b : ℕ} {u : Shape} (x : (⟨2, ![a, b]⟩ : Shape).Idx → EReal) (init : u.Idx → EReal)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := .f32)) x init h' hu (ix1 p)
      = foldMax (init (Shape.Idx.first hu)) (fun k : Fin b => x (ix2 p k)) := by
  refine (Host.reduce_eq_fold_single (FloatOps.maximumf (F := Ideal) (φ := .f32)) x init h' h hu (ix1 p)).trans ?_
  unfold foldMax
  refine congrArg (fun f : Fin b → EReal => Finset.fold max (init (Shape.Idx.first hu)) f Finset.univ) (funext fun k => congrArg x ?_)
  funext ax; apply Fin.ext
  match ax with
  | ⟨0, _⟩ => rfl
  | ⟨1, _⟩ => rfl

/-- The host's one-operand reduce with a maximum body over the FIRST axis of an `[a, b]` matrix, read at column `c`:
    the running maximum of that column's entries from the initial value's element. -/
theorem hostReduce_maximumf_firstAxis_apply {a b : ℕ} {u : Shape} (x : (⟨2, ![a, b]⟩ : Shape).Idx → EReal) (init : u.Idx → EReal)
    (h' : (⟨2, ![a, b]⟩ : Shape).ReducesTo [0] ⟨1, ![b]⟩) (h : (⟨2, ![a, b]⟩ : Shape).Reduces [0] ⟨1, ![b]⟩)
    (hu : 0 < u.numel) (c : Fin b) :
    Host.reduce (FloatOps.maximumf (F := Ideal) (φ := .f32)) x init h' hu (ix1 c)
      = foldMax (init (Shape.Idx.first hu)) (fun r : Fin a => x (ix2 r c)) := by
  refine (Host.reduce_eq_fold_single (FloatOps.maximumf (F := Ideal) (φ := .f32)) x init h' h hu (ix1 c)).trans ?_
  unfold foldMax
  refine congrArg (fun f : Fin a → EReal => Finset.fold max (init (Shape.Idx.first hu)) f Finset.univ) (funext fun r => congrArg x ?_)
  funext ax; apply Fin.ext
  match ax with
  | ⟨0, _⟩ => rfl
  | ⟨1, _⟩ => rfl

end Cert.LibMaxReduce

end
-- ==== Proof.LstmRow.lean ====
/-
  One step of an LSTM cell, a linear layer and a softmax, for ONE row, on the extended reals.

  A row x of twelve entries is laid out [h (4), c (4), obs (4)]. With weight matrices W₁ (for the observation) and W₂
  (for the hidden state), both 16 × 4, and biases b₁, b₂ of length 16,
      gate j   = ((Σₖ obs k · W₁ j k  +  b₁ j)  +  Σₖ h k · W₂ j k)  +  b₂ j        (sixteen gates, in the order i, f, g, o)
      cell q   = σ(gate (4+q)) · c q  +  σ(gate q) · tanh(gate (8+q))
      hidden q = σ(gate (12+q)) · tanh(cell q)
  where σ z = 1 / (1 + e^(−z)) is the logistic function. With W₃ (2 × 4) and b₃ (length 2),
      logit a  = Σₖ hidden k · W₃ a k  +  b₃ a
      top      = max(s, max over a of logit a from s)          (s the value of the word the maximum starts from, −∞)
      action a = e^(logit a − top) / Σₐ' e^(logit a' − top)
  and the second result's row is the new hidden state followed by the new cell state.
  The sums are written in the order the two programs add their terms, so nothing here needs a finite entry: both
  programs compute these very expressions of a row, and only their spellings of a row differ.
-/
import Idealize.ShloMosaic.PureOps.Ideal
import proofs.«181186_j41807211659790_2_alg».proof.Proof.LibMaxReduce

noncomputable section

namespace Cert.LstmRow

open Idealize.ShloMosaic Cert.LibMaxReduce

variable (x : Fin 12 → EReal) (W₁ W₂ : Fin 16 → Fin 4 → EReal) (b₁ b₂ : Fin 16 → EReal)
  (W₃ : Fin 2 → Fin 4 → EReal) (b₃ : Fin 2 → EReal)

/-- The sixteen gate pre-activations of a row: the observation (entries 8–11) through W₁, plus b₁, plus the hidden
    state (entries 0–3) through W₂, plus b₂, added in that order. -/
def gate : Fin 16 → EReal := fun j =>
  (((∑ k : Fin 4, x ⟨8 + k.val, by have := k.isLt; omega⟩ * W₁ j k) + b₁ j)
    + ∑ k : Fin 4, x ⟨k.val, by have := k.isLt; omega⟩ * W₂ j k) + b₂ j

/-- The new cell state: the forget gate times the old cell state (entries 4–7) plus the input gate times the candidate. -/
def cell : Fin 4 → EReal := fun q =>
  Ideal.logistic (gate x W₁ W₂ b₁ b₂ ⟨4 + q.val, by have := q.isLt; omega⟩) * x ⟨4 + q.val, by have := q.isLt; omega⟩
    + Ideal.logistic (gate x W₁ W₂ b₁ b₂ ⟨q.val, by have := q.isLt; omega⟩)
        * Ideal.tanh (gate x W₁ W₂ b₁ b₂ ⟨8 + q.val, by have := q.isLt; omega⟩)

/-- The new hidden state: the output gate times tanh of the new cell state. -/
def hidden : Fin 4 → EReal := fun q =>
  Ideal.logistic (gate x W₁ W₂ b₁ b₂ ⟨12 + q.val, by have := q.isLt; omega⟩) * Ideal.tanh (cell x W₁ W₂ b₁ b₂ q)

/-- The two logits: the new hidden state through W₃, plus b₃. -/
def logit : Fin 2 → EReal := fun a => (∑ k : Fin 4, hidden x W₁ W₂ b₁ b₂ k * W₃ a k) + b₃ a

/-- The value the softmax subtracts: the running maximum of the logits from the start value `s`, joined with `s` once
    more (as both programs do). -/
def top (s : EReal) : EReal := max s (foldMax s (logit x W₁ W₂ b₁ b₂ W₃ b₃))

/-- The softmax of the two logits. -/
def action (s : EReal) : Fin 2 → EReal := fun a =>
  Ideal.div (Ideal.exp (logit x W₁ W₂ b₁ b₂ W₃ b₃ a - top x W₁ W₂ b₁ b₂ W₃ b₃ s))
    (∑ a' : Fin 2, Ideal.exp (logit x W₁ W₂ b₁ b₂ W₃ b₃ a' - top x W₁ W₂ b₁ b₂ W₃ b₃ s))

/-- The value both programs' maxima start from: the value of the word of −∞. It is the same word on both sides, so it is
    kept as the word's value and never evaluated. -/
abbrev start : EReal := Ideal.ofBits .f32 0xFF800000#32

/-- The second result's row: the new hidden state, then the new cell state. -/
def state : Fin 8 → EReal := fun q =>
  if hq : q.val < 4 then hidden x W₁ W₂ b₁ b₂ ⟨q.val, hq⟩
  else cell x W₁ W₂ b₁ b₂ ⟨q.val - 4, by have := q.isLt; omega⟩

/-- Columns 0–3 of the second result's row are the new hidden state. -/
theorem state_hidden (q : Fin 4) :
    state x W₁ W₂ b₁ b₂ ⟨q.val, by have := q.isLt; omega⟩ = hidden x W₁ W₂ b₁ b₂ q := by
  unfold state
  rw [dif_pos (show q.val < 4 from q.isLt)]

/-- Columns 4–7 of the second result's row are the new cell state. -/
theorem state_cell (q : Fin 4) :
    state x W₁ W₂ b₁ b₂ ⟨4 + q.val, by have := q.isLt; omega⟩ = cell x W₁ W₂ b₁ b₂ q := by
  unfold state
  rw [dif_neg (show ¬ 4 + q.val < 4 by omega)]
  exact congrArg (cell x W₁ W₂ b₁ b₂) (Fin.ext (by show 4 + q.val - 4 = q.val; omega))

end Cert.LstmRow

end
-- ==== Proof.LibRowBroadcast.lean ====
/-
  A ROW `[1, b]` spread over `a` rows: the broadcast to `[a, b]` reads, at `(p, c)`, the row's entry of column `c`
  — every row of the result is the one row of the operand. The unit coordinate `u : Fin 1` is whatever the caller
  writes: there is only one.
-/
import Idealize.ShloMosaic.Lib.ValueLayout

namespace Cert.LibRowBroadcast

open Idealize.ShloMosaic Idealize.ShloMosaic.ValueIdx

variable {α : Type}

/-- A row `[1, b]` broadcast to `[a, b]` reads, at `(p, c)`, the row's entry of column `c`. -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

end Cert.LibRowBroadcast
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«181186_j41807211659790_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.LibRowRead.lean ====
/-
  Rows of matrices, read through the operations a row-wise network is printed with, at the ideal values.

  A value of shape [A, n] is read one row at a time: `rowOf X p` is row `p` as a function of the column, and
  `mat W` is a weight matrix as a function of row and column. Each lemma says what one operation does to a row:
  a plain matrix product (a kernel's `tpu.matmul` into the zero accumulator, the host's `dot_general`) is the
  linear layer `j ↦ Σ_i h i · W i j` of the row; a maximum with the zero splat is the rectifier of the row; a
  change of float format and a shape cast to the same shape change nothing; a slice of columns takes those columns
  of the row; two matrices set side by side give the first's row followed by the second's.
-/
import Idealize.ShloMosaic.PureOps.Ideal.Laws
import Idealize.ShloMosaic.Lib.ValueIdx
import Idealize.ShloMosaic.Lib.Pipeline.Value
import proofs.«181186_j41807211659790_2_alg».proof.Proof.LibPlainMatmul

noncomputable section

namespace RowRead

open Idealize.ShloMosaic Idealize.ShloMosaic.ValueIdx Finset

/-- Row `p` of an [A, n] value, as a function of the column. -/
def rowOf {A n : ℕ} (X : (⟨2, ![A, n]⟩ : Shape).Idx → EReal) (p : Fin A) : Fin n → EReal := fun k => X (ix2 p k)

/-- A matrix as a function of row and column. -/
def mat {a b : ℕ} (W : (⟨2, ![a, b]⟩ : Shape).Idx → EReal) : Fin a → Fin b → EReal := fun i j => W (ix2 i j)

/-- Three matrices of one shape, by their place. -/
def mats3 {a b : ℕ} (u0 u1 u2 : (⟨2, ![a, b]⟩ : Shape).Idx → EReal) : Fin 3 → Fin a → Fin b → EReal :=
  fun n => mat (![u0, u1, u2] n)

/-- A kernel's plain [A, K] × [K, B] product into the zero accumulator: row `p` is the linear layer of the left
    operand's row `p`. -/
theorem rowOf_matmul {A K B : ℕ} {φ₁ φ₂ : FTy} (D : DotDims ⟨2, ![A, K]⟩ ⟨2, ![K, B]⟩ ⟨2, ![A, B]⟩) (hD : D = DotDims.plain A K B)
    (prec : Option ContractPrecision) (lhs : FVec Ideal ⟨2, ![A, K]⟩ φ₁) (rhs : FVec Ideal ⟨2, ![K, B]⟩ φ₂) (p : Fin A) :
    rowOf (FloatOps.matmul D prec lhs rhs (constant ⟨2, ![A, B]⟩ .f32 0x00000000#32)) p = fun j => ∑ i, rowOf lhs p i * mat rhs i j := by
  subst hD
  funext j
  exact matmul_plain_zero_apply A K B prec lhs rhs p j

/-- The host's plain [A, K] × [K, B] `dot_general`: the same. -/
theorem rowOf_dotGeneral {A K B : ℕ} {φ₁ φ₂ : FTy} (D : DotDims ⟨2, ![A, K]⟩ ⟨2, ![K, B]⟩ ⟨2, ![A, B]⟩) (hD : D = DotDims.plain A K B)
    (prec : Option ContractPrecision) (sched : HostSchedule) (lhs : FVec Ideal ⟨2, ![A, K]⟩ φ₁) (rhs : FVec Ideal ⟨2, ![K, B]⟩ φ₂) (p : Fin A) :
    rowOf (FloatOps.dotGeneral D prec sched lhs rhs) p = fun j => ∑ i, rowOf lhs p i * mat rhs i j := by
  subst hD
  funext j
  show FloatOps.dotGeneral (DotDims.plain A K B) prec sched lhs rhs (ix2 p j) = ∑ k : Fin K, lhs (ix2 p k) * rhs (ix2 k j)
  rw [Ideal.dotGeneral_apply, ← Equiv.sum_comp (contrEquiv1 (DotDims.plain A K B) K rfl rfl).symm]
  refine sum_congr rfl fun k _ => ?_
  rw [plain_lhsIdx, plain_rhsIdx]

/-- A maximum with a value that is zero everywhere is the rectifier of the row. -/
theorem rowOf_max_zero {A n : ℕ} (v z : (⟨2, ![A, n]⟩ : Shape).Idx → EReal) (hz : ∀ i, z i = 0) (p : Fin A) :
    rowOf (fun i => max (v i) (z i)) p = fun j => max (rowOf v p j) 0 := by
  funext j
  show max (v (ix2 p j)) (z (ix2 p j)) = max (v (ix2 p j)) 0
  rw [hz]

/-- A kernel's maximum with the splat of a scalar that is zero: the rectifier of the row. -/
theorem rowOf_max_splat {A n : ℕ} {φ : FTy} (v : FVec Ideal ⟨2, ![A, n]⟩ φ) (z : Ideal φ) (hz : z = (0 : EReal)) (p : Fin A) :
    rowOf (maximumf v (broadcast ⟨2, ![A, n]⟩ z)) p = fun j => max (rowOf v p j) 0 :=
  rowOf_max_zero v (broadcast ⟨2, ![A, n]⟩ z) (fun _ => hz) p

/-- The host's maximum with a scalar zero constant broadcast to the shape: the same. -/
theorem rowOf_max_host {A n : ℕ} (v : FVec Ideal ⟨2, ![A, n]⟩ .f32)
    (hb : (⟨0, ![]⟩ : Shape).BroadcastsInDim ⟨2, ![A, n]⟩ (![] : Fin 0 → Fin 2)) (p : Fin A) :
    rowOf (maximumf v (broadcastInDim ⟨2, ![A, n]⟩ ![] hb (constant (F := Ideal) ⟨0, ![]⟩ .f32 0x00000000#32))) p
      = fun j => max (rowOf v p j) 0 :=
  rowOf_max_zero v _ (fun i => by
    rw [broadcastInDim_apply ![] hb _ i ix0 (fun a => a.elim0)]
    exact Ideal.ofBits_zero_f32) p

/-- A change of float format changes nothing. -/
theorem rowOf_truncf {A n : ℕ} {φ ψ : FTy} (v : FVec Ideal ⟨2, ![A, n]⟩ φ) (h : ψ.bits < φ.bits) (p : Fin A) :
    rowOf (truncf ψ v h : FVec Ideal ⟨2, ![A, n]⟩ ψ) p = rowOf v p := rfl

/-- A slice of `n` columns from column `o` on takes those columns of the row. -/
theorem rowOf_slice {A N n : ℕ} (o : ℕ) (ho : o + n ≤ N) (X : (⟨2, ![A, N]⟩ : Shape).Idx → EReal)
    (h : (⟨2, ![A, N]⟩ : Shape).Slices ![0, o] ⟨2, ![A, n]⟩) (p : Fin A) :
    rowOf (extractStridedSlice ⟨2, ![A, n]⟩ ![0, o] X h) p = fun k => rowOf X p ⟨o + k.val, by have := k.isLt; omega⟩ := by
  funext k
  exact extractStridedSlice_apply ![0, o] X h (ix2 p k) (ix2 p ⟨o + k.val, by have := k.isLt; omega⟩) (fun a => by
    match a with
    | ⟨0, _⟩ => show p.val = 0 + p.val; omega
    | ⟨1, _⟩ => rfl)

/-- A slice of the first `n` columns. -/
theorem rowOf_slice_front {A N n : ℕ} (ho : n ≤ N) (X : (⟨2, ![A, N]⟩ : Shape).Idx → EReal)
    (h : (⟨2, ![A, N]⟩ : Shape).Slices ![0, 0] ⟨2, ![A, n]⟩) (p : Fin A) :
    rowOf (extractStridedSlice ⟨2, ![A, n]⟩ ![0, 0] X h) p = fun k => rowOf X p ⟨k.val, by have := k.isLt; omega⟩ := by
  rw [rowOf_slice 0 (by omega)]
  funext k
  exact congrArg (fun q => X (ix2 p q)) (Fin.ext (Nat.zero_add _))

/-- Two matrices set side by side: the first's row, then the second's. -/
theorem rowOf_beside {A n₁ n₂ N : ℕ} (x₁ : (⟨2, ![A, n₁]⟩ : Shape).Idx → EReal) (x₂ : (⟨2, ![A, n₂]⟩ : Shape).Idx → EReal)
    (h : Shape.Concatenates [(⟨2, ![A, n₁]⟩ : Shape), ⟨2, ![A, n₂]⟩] ⟨2, ![A, N]⟩ 1) (hN : n₁ + n₂ = N) (p : Fin A) :
    rowOf (concatenate ⟨2, ![A, N]⟩ 1 [⟨⟨2, ![A, n₁]⟩, x₁⟩, ⟨⟨2, ![A, n₂]⟩, x₂⟩] h) p
      = fun k => if hk : k.val < n₁ then rowOf x₁ p ⟨k.val, hk⟩ else rowOf x₂ p ⟨k.val - n₁, by have := k.isLt; omega⟩ := by
  funext k
  by_cases hk : k.val < n₁
  · rw [dif_pos hk]
    exact concatenate_pair_apply_left 1 x₁ x₂ h (ix2 p k) rfl (ix2 p ⟨k.val, hk⟩) (fun b => by
      match b with
      | ⟨0, _⟩ => rfl
      | ⟨1, _⟩ => rfl)
  · rw [dif_neg hk]
    exact concatenate_pair_apply_right 1 x₁ x₂ h (ix2 p k) rfl rfl (ix2 p ⟨k.val - n₁, by have := k.isLt; omega⟩) (fun b hb => by
      match b with
      | ⟨0, _⟩ => rfl
      | ⟨1, _⟩ => exact absurd rfl hb) (by show k.val - n₁ + n₁ = k.val; omega)

end RowRead

end
-- ==== Proof.LibRowSpread.lean ====
/-
  Vectors and scalars spread over a matrix, a transposed weight matrix, and the pointwise operations, each read one
  row at a time, at the ideal values.

  A row-wise network adds a bias vector [b] to every row of an [a, b] matrix. A kernel spells the spread as a reshape
  of the vector to the row [1, b] followed by a broadcast over the rows; the host as a broadcast along axis 1 into [1, b]
  followed by a broadcast into [a, b]. Either way every row of the result is the vector. A per-row statistic [a] kept as
  a column [a, 1] and spread over the columns holds, in row p, that row's statistic in every column; a scalar constant
  spread over any shape holds the constant's value everywhere. A weight matrix transposed and read at (i, j) is the matrix
  at (j, i). The pointwise operations act on a row entry by entry; the host's expansion of the logistic function,
  1 / (1 + e^(−z)) with both ones a splat of the number one, is the logistic function.
-/
import Idealize.ShloMosaic.Lib.ValueLayout
import Idealize.ShloMosaic.Lib.Pipeline.Value
import Idealize.ShloMosaic.Lib.IdealHost
import Idealize.ShloMosaic.PureOps.Ideal.Laws
import proofs.«181186_j41807211659790_2_alg».proof.Proof.LibRowBroadcast
import proofs.«181186_j41807211659790_2_alg».proof.Proof.LibPlainDot
import proofs.«181186_j41807211659790_2_alg».proof.Proof.LibRowRead

noncomputable section

namespace Cert.LibRowSpread

open Idealize.ShloMosaic Idealize.ShloMosaic.ValueIdx RowRead

/-- A vector as a function of its coordinate. -/
def vec {n : ℕ} (v : (⟨1, ![n]⟩ : Shape).Idx → EReal) : Fin n → EReal := fun j => v (ix1 j)

/-! ## A vector spread over the rows, a column over the columns, a scalar over everything -/

/-- A vector `[b]` cast to the row `[1, b]` reads, at `(u, e)`, the vector at `e`: both indices sit at row-major
    position `e`. -/
theorem shapeCast_b_1b_apply {α : Type} {b : ℕ} (x : (⟨1, ![b]⟩ : Shape).Idx → α)
    (h : (⟨1, ![b]⟩ : Shape).ShapeCasts ⟨2, ![1, b]⟩) (u : Fin 1) (e : Fin b) :
    shapeCast ⟨2, ![1, b]⟩ x h (ix2 u e) = x (ix1 e) :=
  shapeCast_apply x h _ _ (by
    have hu : u.val = 0 := by omega
    rw [Shape.rowMajor_val_one, Shape.rowMajor_val_two]
    show e.val = u.val * b + e.val
    rw [hu, Nat.zero_mul, Nat.zero_add])

/-- A vector reshaped to a row and broadcast over `a` rows: every row is the vector. -/
theorem rowOf_bias_cast {a b : ℕ} (v : (⟨1, ![b]⟩ : Shape).Idx → EReal) (hc : (⟨1, ![b]⟩ : Shape).ShapeCasts ⟨2, ![1, b]⟩)
    (hb : (⟨2, ![1, b]⟩ : Shape).Broadcasts ⟨2, ![a, b]⟩) (p : Fin a) :
    rowOf (broadcastTo ⟨2, ![a, b]⟩ (shapeCast ⟨2, ![1, b]⟩ v hc) hb) p = vec v := by
  funext j
  exact (Cert.LibRowBroadcast.broadcastTo_1b_ab_apply _ hb p j (0 : Fin 1)).trans (shapeCast_b_1b_apply v hc 0 j)

/-- A vector broadcast along axis 1 into the row `[1, b]` and then into `[a, b]`: every row is the vector. -/
theorem rowOf_bias_bcast {a b : ℕ} (v : (⟨1, ![b]⟩ : Shape).Idx → EReal)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 v)) p = vec v := by
  funext j
  refine (broadcastInDim_apply ![0, 1] h2 _ (ix2 p j) (ix2 (0 : Fin 1) j) fun d => ?_).trans
    (broadcastInDim_apply ![1] h1 v (ix2 (0 : Fin 1) j) (ix1 j) fun d => ?_)
  · match d with
    | ⟨0, _⟩ =>
      show (0 : ℕ) = if (1 : ℕ) = 1 then 0 else p.val
      rw [if_pos rfl]
    | ⟨1, _⟩ =>
      show j.val = if b = 1 then 0 else j.val
      split
      · have := j.isLt; omega
      · rfl
  · match d with
    | ⟨0, _⟩ =>
      show j.val = if b = 1 then 0 else j.val
      split
      · have := j.isLt; omega
      · rfl

/-- A vector `[a]` broadcast along axis 0 into the column `[a, 1]` and then into `[a, b]` reads, at `(p, c)`, the
    vector at `p`: every column is the vector. -/
theorem column_bcast_apply {α : Type} {a b : ℕ} (v : (⟨1, ![a]⟩ : Shape).Idx → α)
    (h1 : (⟨1, ![a]⟩ : Shape).BroadcastsInDim ⟨2, ![a, 1]⟩ ![0])
    (h2 : (⟨2, ![a, 1]⟩ : Shape).BroadcastsInDim ⟨2, ![a, b]⟩ ![0, 1]) (p : Fin a) (c : Fin b) :
    broadcastInDim ⟨2, ![a, b]⟩ ![0, 1] h2 (broadcastInDim ⟨2, ![a, 1]⟩ ![0] h1 v) (ix2 p c) = v (ix1 p) := by
  refine (broadcastInDim_apply ![0, 1] h2 _ (ix2 p c) (ix2 p (0 : Fin 1)) fun d => ?_).trans
    (broadcastInDim_apply ![0] h1 v (ix2 p (0 : Fin 1)) (ix1 p) fun d => ?_)
  · match d with
    | ⟨0, _⟩ =>
      show p.val = if a = 1 then 0 else p.val
      split
      · have := p.isLt; omega
      · rfl
    | ⟨1, _⟩ =>
      show (0 : ℕ) = if (1 : ℕ) = 1 then 0 else c.val
      rw [if_pos rfl]
  · match d with
    | ⟨0, _⟩ =>
      show p.val = if a = 1 then 0 else p.val
      split
      · have := p.isLt; omega
      · rfl

/-- A scalar constant broadcast to any shape holds the value of its word everywhere. -/
theorem splat_const_apply {s : Shape} (hb : (⟨0, ![]⟩ : Shape).BroadcastsInDim s ![]) (w : BitVec 32) (i : s.Idx) :
    broadcastInDim s ![] hb (constant (F := Ideal) ⟨0, ![]⟩ .f32 w) i = Ideal.ofBits .f32 w :=
  broadcastInDim_apply ![] hb _ i ix0 (fun a => a.elim0)

/-! ## A transposed weight matrix -/

/-- The transpose of an `[a, b]` matrix, as a function of row and column, is the matrix with its arguments swapped. -/
theorem mat_transpose {a b : ℕ} (W : (⟨2, ![a, b]⟩ : Shape).Idx → EReal)
    (h : (⟨2, ![a, b]⟩ : Shape).Transposes [1, 0] ⟨2, ![b, a]⟩) :
    mat (transpose ⟨2, ![b, a]⟩ [1, 0] W h) = fun i j => mat W j i := by
  funext i j
  exact Cert.LibPlainDot.transpose_swap_apply a b W h i j

/-! ## The pointwise operations on a row -/

section pointwise
variable {A n : ℕ} (u v : FVec Ideal ⟨2, ![A, n]⟩ .f32) (p : Fin A)

theorem rowOf_addf : rowOf (addf u v) p = fun j => rowOf u p j + rowOf v p j := rfl
theorem rowOf_mulf : rowOf (mulf u v) p = fun j => rowOf u p j * rowOf v p j := rfl
theorem rowOf_logistic : rowOf (logistic u) p = fun j => Ideal.logistic (rowOf u p j) := rfl
theorem rowOf_tanh : rowOf (tanh u) p = fun j => Ideal.tanh (rowOf u p j) := rfl
theorem rowOf_hostTanh : rowOf (Host.tanh u) p = fun j => Ideal.tanh (rowOf u p j) := rfl

/-- The host's expansion of the logistic function — one over one plus the exponential of the negated value, both ones
    a value that is the number one everywhere — is the logistic function of the row. -/
theorem rowOf_hostLogistic (one one' : FVec Ideal ⟨2, ![A, n]⟩ .f32) (h1 : ∀ i, one i = 1) (h1' : ∀ i, one' i = 1) :
    rowOf (Host.divf one (addf one' (Host.exp (Host.negf u)))) p = fun j => Ideal.logistic (rowOf u p j) := by
  funext j
  show Ideal.div (one (ix2 p j)) (one' (ix2 p j) + Ideal.exp (-(u (ix2 p j)))) = Ideal.div 1 (1 + Ideal.exp (-(u (ix2 p j))))
  rw [h1, h1']

end pointwise

end Cert.LibRowSpread

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.LibSoftmaxBlock.lean ====
/-
  The pieces of a softmax over the LAST axis of an `[a, b]` block as a vector unit computes it, read at an entry.

  A row statistic — the row's maximum, or the row's sum — is reduced to a vector `[a]`, kept as a column `[a, 1]`
  and spread back over the `b` columns. Read at `(r, m)` the spread statistic is the statistic of row `r`, whatever
  `m` is:
  • the maximum: the running maximum of row `r`'s entries from the accumulator word's value;
  • the sum: the sum of row `r`'s entries.
-/
import proofs.«181186_j41807211659790_2_alg».proof.Proof.LibKeepdims
import proofs.«181186_j41807211659790_2_alg».proof.Proof.LibMaxReduce

noncomputable section

namespace Cert.LibSoftmaxBlock

open Idealize.ShloMosaic Idealize.ShloMosaic.ValueIdx Cert.LibMaxReduce

/-- A row maximum kept as a column and spread over the columns, read at `(r, m)`: the running maximum of row `r`. -/
theorem rowMax_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .maximumf [1] ⟨1, ![a]⟩ S acc hr hφ hacc) hc) hb (ix2 r m)
      = foldMax (Ideal.ofBits .f32 acc) (fun k : Fin b => S (ix2 r k)) :=
  (Cert.LibKeepdims.broadcastTo_a1_ab_apply _ hb r m (0 : Fin 1)).trans
    ((Cert.LibKeepdims.shapeCast_a_a1_apply _ hc r (0 : Fin 1)).trans
      (multiReduction_maximumf_lastAxis_apply S acc hr hφ hacc r))

/-- A row sum kept as a column and spread over the columns, read at `(r, m)`: the sum of row `r`. -/
theorem rowSum_spread_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    broadcastTo ⟨2, ![a, b]⟩ (shapeCast ⟨2, ![a, 1]⟩ (multiReduction .add [1] ⟨1, ![a]⟩ S acc hr hφ hacc) hc) hb (ix2 r m)
      = ∑ k : Fin b, S (ix2 r k) :=
  (Cert.LibKeepdims.broadcastTo_a1_ab_apply _ hb r m (0 : Fin 1)).trans
    ((Cert.LibKeepdims.shapeCast_a_a1_apply _ hc r (0 : Fin 1)).trans
      (Cert.LibKeepdims.multiReduction_add_lastAxis_apply S acc hr hφ hacc r))

/-- The exponential of each entry's distance below its row's maximum, read at `(r, m)`. -/
theorem expBelowRowMax_apply {a b : ℕ} (S : FVec Ideal ⟨2, ![a, b]⟩ .f32) (acc : BitVec 32)
    (hr : (⟨2, ![a, b]⟩ : Shape).Reduces [1] ⟨1, ![a]⟩) (hφ : FKind.Formats .f32) (hacc : acc = FKind.maximumf.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    exp (subf S (broadcastTo ⟨2, ![a, b]⟩ (shapeCast ⟨2, ![a, 1]⟩ (multiReduction .maximumf [1] ⟨1, ![a]⟩ S acc hr hφ hacc) hc) hb)) (ix2 r m)
      = Ideal.exp (S (ix2 r m) - foldMax (Ideal.ofBits .f32 acc) (fun k : Fin b => S (ix2 r k))) :=
  congrArg (fun z : EReal => Ideal.exp (S (ix2 r m) - z)) (rowMax_spread_apply S acc hr hφ hacc hc hb r m)

/-- Each entry divided by its row's sum, read at `(r, m)`. -/
theorem overRowSum_apply {a b : ℕ} (X : FVec Ideal ⟨2, ![a, b]⟩ .f32) (acc : BitVec 32)
    (hr : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (m : Fin b) :
    divf X (broadcastTo ⟨2, ![a, b]⟩ (shapeCast ⟨2, ![a, 1]⟩ (multiReduction .add [1] ⟨1, ![a]⟩ X acc hr hφ hacc) hc) hb) (ix2 r m)
      = Ideal.div (X (ix2 r m)) (∑ k : Fin b, X (ix2 r k)) :=
  congrArg (fun z : EReal => Ideal.div (X (ix2 r m)) z) (rowSum_spread_apply X acc hr hφ hacc hc hb r m)

end Cert.LibSoftmaxBlock

end
-- ==== Proof.KernelRows.lean ====
/-
  The kernel's arithmetic, read one row at a time.

  A grid point works on a block of 4096 rows. Row p of each value the body computes depends only on row p of the input
  block and on the (whole) weight and bias blocks, and is the LSTM step of that row: the sixteen gate pre-activations,
  the new cell state, the new hidden state, the two logits, and the softmax of the logits. The softmax keeps each row's
  maximum and each row's sum as a column and spreads it back over the two columns.
-/
import proofs.«181186_j41807211659790_2_alg».proof.Proof.Gen.KernelIdeal.Skeleton
import proofs.«181186_j41807211659790_2_alg».proof.Proof.LstmRow
import proofs.«181186_j41807211659790_2_alg».proof.Proof.LibRowSpread
import proofs.«181186_j41807211659790_2_alg».proof.Proof.LibSoftmaxBlock

noncomputable section

namespace Cert.KernelIdeal.Rows

open Cert.KernelIdeal Cert.KernelIdeal.Gen Idealize.ShloMosaic Idealize.ShloMosaic.ValueIdx
open RowRead Cert.LibRowSpread Cert.LibMaxReduce Cert.LstmRow

variable (P0 : Vec Ideal S4096x12 .f32) (P1 P2 : Vec Ideal S16x4 .f32) (P3 P4 : Vec Ideal S16 .f32)
  (P5 : Vec Ideal S2x4 .f32) (P6 : Vec Ideal S2 .f32) (p : Fin 4096)

/-- Row p of the gate pre-activations: the observation through the transposed input weights, plus the first bias, plus
    the hidden state through the transposed hidden weights, plus the second bias. -/
theorem gates_row : rowOf (k0_pay2 P0 P1 P2 P3 P4) p = gate (rowOf P0 p) (mat P1) (mat P2) (vec P3) (vec P4) := by
  unfold k0_pay2
  dsimp only
  rw [rowOf_addf, rowOf_addf, rowOf_addf, rowOf_matmul dot_S4096x4_S4x16_S4096x16_1_0_0_1_n_n rfl, rowOf_matmul dot_S4096x4_S4x16_S4096x16_1_0_0_1_n_n rfl,
    rowOf_bias_cast, rowOf_bias_cast,
    mat_transpose, mat_transpose, rowOf_slice (N := 12) (n := 4) 8 (by omega), rowOf_slice_front (N := 12) (n := 4) (by omega)]
  rfl

/-- Row p of the new cell state. -/
theorem cell_row : rowOf (k0_pay3 P0 P1 P2 P3 P4) p = cell (rowOf P0 p) (mat P1) (mat P2) (vec P3) (vec P4) := by
  unfold k0_pay3
  dsimp only
  rw [rowOf_addf, rowOf_mulf, rowOf_mulf, rowOf_logistic, rowOf_logistic, rowOf_tanh,
    rowOf_slice (N := 16) (n := 4) 4 (by omega), rowOf_slice (N := 16) (n := 4) 8 (by omega),
    rowOf_slice_front (N := 16) (n := 4) (by omega), rowOf_slice (N := 12) (n := 4) 4 (by omega), gates_row]
  rfl

/-- Row p of the new hidden state. -/
theorem hidden_row : rowOf (k0_pay4 P0 P1 P2 P3 P4) p = hidden (rowOf P0 p) (mat P1) (mat P2) (vec P3) (vec P4) := by
  unfold k0_pay4
  dsimp only
  rw [rowOf_mulf, rowOf_logistic, rowOf_tanh, rowOf_slice (N := 16) (n := 4) 12 (by omega), gates_row, cell_row]
  rfl

/-- Row p of the logits: the new hidden state through the transposed output weights, plus the output bias. -/
theorem logit_row :
    rowOf (k0_pay5 P0 P1 P2 P3 P4 P5 P6) p = logit (rowOf P0 p) (mat P1) (mat P2) (vec P3) (vec P4) (mat P5) (vec P6) := by
  unfold k0_pay5
  dsimp only
  rw [rowOf_addf, rowOf_matmul dot_S4096x4_S4x2_S4096x2_1_0_0_1_n_n rfl, rowOf_bias_cast, mat_transpose, hidden_row]
  rfl

/-- The column the softmax subtracts: at row p, the running maximum of the row's entries from the start value, joined
    with the start value once more. -/
theorem top_column (L : FVec Ideal S4096x2 .f32) (q : Fin 4096) (u : Fin 1) :
    (shapeCast S4096x1 (maximumf (broadcast S4096 (Scalar.ofBits .f32 0xFF800000#32))
        (multiReduction .maximumf [1] S4096 L 0xFF800000#32 reduces_S4096x2_S4096 (.inl rfl) rfl)) shapeCasts_S4096_S4096x1) (ix2 q u)
      = max start (foldMax start (rowOf L q)) := by
  refine (Cert.LibKeepdims.shapeCast_a_a1_apply _ shapeCasts_S4096_S4096x1 q u).trans ?_
  exact congrArg (max start) (multiReduction_maximumf_lastAxis_apply L 0xFF800000#32 reduces_S4096x2_S4096 (.inl rfl) rfl q)

/-- The body's last value at (p, a), for any logits L and any column M holding a value `tp q` in row q: the
    exponential of the entry's distance below `tp p`, over the sum of the row's two such exponentials. -/
theorem softmax_entry (L : FVec Ideal S4096x2 .f32) (M : FVec Ideal S4096x1 .f32) (tp : Fin 4096 → EReal)
    (hM : ∀ (q : Fin 4096) (u : Fin 1), M (ix2 q u) = tp q) (a : Fin 2) :
    k0_pay1 L M (ix2 p a)
      = Ideal.div (Ideal.exp (L (ix2 p a) - tp p)) (∑ a' : Fin 2, Ideal.exp (L (ix2 p a') - tp p)) := by
  have hX : ∀ k : Fin 2, exp (subf L (broadcastTo S4096x2 M broadcasts_S4096x1_S4096x2)) (ix2 p k)
      = Ideal.exp (L (ix2 p k) - tp p) := fun k => by
    show Ideal.exp (L (ix2 p k) - broadcastTo S4096x2 M broadcasts_S4096x1_S4096x2 (ix2 p k)) = _
    rw [Cert.LibKeepdims.broadcastTo_a1_ab_apply M broadcasts_S4096x1_S4096x2 p k (0 : Fin 1), hM]
  unfold k0_pay1
  dsimp only
  refine (Cert.LibSoftmaxBlock.overRowSum_apply _ 0x00000000#32 reduces_S4096x2_S4096 (.inl rfl) rfl
    shapeCasts_S4096_S4096x1 broadcasts_S4096x1_S4096x2 p a).trans ?_
  rw [hX a]
  exact congrArg (Ideal.div _) (Finset.sum_congr rfl fun k _ => hX k)

/-- The first result's block at (p, a) is the softmax of row p's logits. -/
theorem action_entry (a : Fin 2) :
    k0_pay1 (k0_pay5 P0 P1 P2 P3 P4 P5 P6) (k0_pay6 P0 P1 P2 P3 P4 P5 P6) (ix2 p a)
      = action (rowOf P0 p) (mat P1) (mat P2) (vec P3) (vec P4) (mat P5) (vec P6) start a := by
  refine (softmax_entry p _ _ (fun q => top (rowOf P0 q) (mat P1) (mat P2) (vec P3) (vec P4) (mat P5) (vec P6) start)
    (fun q u => ?_) a).trans ?_
  · unfold k0_pay6
    dsimp only
    refine (top_column _ q u).trans ?_
    rw [logit_row]
    rfl
  · have hL : ∀ k : Fin 2, k0_pay5 P0 P1 P2 P3 P4 P5 P6 (ix2 p k)
        = logit (rowOf P0 p) (mat P1) (mat P2) (vec P3) (vec P4) (mat P5) (vec P6) k :=
      fun k => congrFun (logit_row P0 P1 P2 P3 P4 P5 P6 p) k
    unfold action
    rw [hL a]
    exact congrArg (Ideal.div _) (Finset.sum_congr rfl fun k _ => by rw [hL k])

end Cert.KernelIdeal.Rows

end
-- ==== Proof.LstmArrays.lean ====
/-
  The two results as whole arrays: ONE function each of the seven argument arrays, index by index.

  Row r of the first result is the softmax of row r's two logits; row r of the second is row r's new hidden state
  followed by its new cell state. A row of a result depends on that row of the input alone (and on the weights and
  biases), which is why a program that works through the rows in blocks and one that takes them all at once agree.
-/
import proofs.«181186_j41807211659790_2_alg».proof.Proof.LstmRow
import proofs.«181186_j41807211659790_2_alg».proof.Proof.LibRowSpread

noncomputable section

namespace Cert.LstmRow

open Idealize.ShloMosaic Idealize.ShloMosaic.ValueIdx RowRead Cert.LibRowSpread

variable (a0 : (⟨2, ![4194304, 12]⟩ : Shape).Idx → EReal) (a1 a2 : (⟨2, ![16, 4]⟩ : Shape).Idx → EReal)
  (a3 a4 : (⟨1, ![16]⟩ : Shape).Idx → EReal) (a5 : (⟨2, ![2, 4]⟩ : Shape).Idx → EReal) (a6 : (⟨1, ![2]⟩ : Shape).Idx → EReal)

/-- The first result: entry (r, a) is the softmax of row r's logits at a. -/
def actionArray : (⟨2, ![4194304, 2]⟩ : Shape).Idx → EReal := fun i =>
  action (rowOf a0 (i 0)) (mat a1) (mat a2) (vec a3) (vec a4) (mat a5) (vec a6) start (i 1)

/-- The second result: entry (r, q) is row r's new hidden state (q < 4) or new cell state (q ≥ 4). -/
def stateArray : (⟨2, ![4194304, 8]⟩ : Shape).Idx → EReal := fun i =>
  state (rowOf a0 (i 0)) (mat a1) (mat a2) (vec a3) (vec a4) (i 1)

theorem actionArray_apply (r : Fin 4194304) (a : Fin 2) :
    actionArray a0 a1 a2 a3 a4 a5 a6 (ix2 r a)
      = action (rowOf a0 r) (mat a1) (mat a2) (vec a3) (vec a4) (mat a5) (vec a6) start a := rfl

theorem stateArray_apply (r : Fin 4194304) (q : Fin 8) :
    stateArray a0 a1 a2 a3 a4 (ix2 r q) = state (rowOf a0 r) (mat a1) (mat a2) (vec a3) (vec a4) q := rfl

end Cert.LstmRow

end
-- ==== Proof.KernelArray.lean ====
/-
  From blocks to the whole arrays: what the kernel's two result arrays hold after the run.

  The grid has 1024 points; point t works on rows 4096·t … 4096·t + 4095 of the input and writes back the same rows of
  both results, while every point sees the whole of each weight and bias array. Each row of a written block is the
  specification's function of the same row of the input (the row lemmas), so point t writes block t of the
  specification's arrays; the 1024 blocks tile the 4194304 rows, so after the run each result array IS the
  specification's array. The second result's block is written by two stores, the new hidden state into columns 0–3
  and the new cell state into columns 4–7, which together are the row "hidden, then cell".
-/
import proofs.«181186_j41807211659790_2_alg».proof.Proof.Gen.KernelIdeal.Value
import Idealize.ShloMosaic.Lib.Pipeline.Value
import proofs.«181186_j41807211659790_2_alg».proof.Proof.KernelRows
import proofs.«181186_j41807211659790_2_alg».proof.Proof.LstmArrays

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)
open RowRead Cert.LibRowSpread Cert.LstmRow

theorem hz2 : (![0, 0] : Fin 2 → Nat) = fun _ => 0 := funext fun a => by fin_cases a <;> rfl
theorem hz1 : (![0] : Fin 1 → Nat) = fun _ => 0 := funext fun a => by fin_cases a; rfl

/-! ## One grid point, over variables

`x0 … x6` are the seven input blocks a point sees, `A0 … A6` the seven argument arrays, `T` the point's position: the
input block is rows 4096·T … of `A0`, and the other six blocks are the whole arrays. -/

section point

variable (x0 : Vec Ideal S4096x12 .f32) (x1 x2 : Vec Ideal S16x4 .f32) (x3 x4 : Vec Ideal S16 .f32)
  (x5 : Vec Ideal S2x4 .f32) (x6 : Vec Ideal S2 .f32)
variable (A0 : S4194304x12.Idx → EReal) (A1 A2 : S16x4.Idx → EReal) (A3 A4 : S16.Idx → EReal)
  (A5 : S2x4.Idx → EReal) (A6 : S2.Idx → EReal)
variable (T : ℕ) (hT : T < 1024)

/-- Row p of the point's input block is row 4096·T + p of the input array. -/
theorem block_row (h0 : ∀ (p : Fin 4096) (k : Fin 12), x0 (ix2 p k) = A0 (ix2 (⟨T * 4096 + p.val, by have := p.isLt; omega⟩ : Fin 4194304) k))
    (p : Fin 4096) : rowOf x0 p = rowOf A0 (⟨T * 4096 + p.val, by have := p.isLt; omega⟩ : Fin 4194304) :=
  funext fun k => h0 p k

/-- The first result's staging block after the body: its one store covers the block, and every load is of a whole block. -/
theorem out7_eq : out0_7 x0 x1 x2 x3 x4 x5 x6
    = k0_pay1 (k0_pay5 x0 x1 x2 x3 x4 x5 x6) (k0_pay6 x0 x1 x2 x3 x4 x5 x6) := by
  unfold out0_7
  rw [View.canon_unit_zero hz2]
  simp only [View.ld_unit_zero (S := S4096x12) hz2, View.ld_unit_zero (S := S16x4) hz2, View.ld_unit_zero (S := S16) hz1,
    View.ld_unit_zero (S := S2x4) hz2, View.ld_unit_zero (S := S2) hz1]

/-- What the point leaves in the first result's block, at (p, a), is the specification's first array at the entry of
    row 4096·T + p under it. -/
theorem point_action (h0 : ∀ (p : Fin 4096) (k : Fin 12), x0 (ix2 p k) = A0 (ix2 (⟨T * 4096 + p.val, by have := p.isLt; omega⟩ : Fin 4194304) k))
    (h1 : x1 = A1) (h2 : x2 = A2) (h3 : x3 = A3) (h4 : x4 = A4) (h5 : x5 = A5) (h6 : x6 = A6)
    (p : Fin 4096) (a : Fin 2) (i : S4194304x2.Idx) (hi0 : (i 0).val = T * 4096 + p.val) (hi1 : (i 1).val = a.val) :
    out0_7 x0 x1 x2 x3 x4 x5 x6 (ix2 p a) = actionArray A0 A1 A2 A3 A4 A5 A6 i := by
  subst h1 h2 h3 h4 h5 h6
  have hb : T * 4096 + p.val < 4194304 := by have := p.isLt; omega
  obtain ⟨r, a', rfl⟩ : ∃ (r : Fin 4194304) (a' : Fin 2), i = ix2 r a' := ⟨i 0, i 1, eq_ix2 i⟩
  have hr : r = ⟨T * 4096 + p.val, hb⟩ := Fin.ext hi0
  have ha : a' = a := Fin.ext hi1
  subst hr ha
  rw [out7_eq, Rows.action_entry, actionArray_apply, block_row x0 A0 T hT h0 p]

/-- The second result's staging block as ONE function of the point's blocks: row p is "hidden, then cell" of row p. -/
def stateBlock : S4096x8.Idx → EReal := fun y => state (rowOf x0 (y 0)) (mat x1) (mat x2) (vec x3) (vec x4) (y 1)

/-- The store into columns 4–7 writes the new cell state. -/
theorem piece_cell (x : S4096x4.Idx) : k0_pay3 x0 x1 x2 x3 x4 x = stateBlock x0 x1 x2 x3 x4 (r0_7.emb x) := by
  obtain ⟨p, q, rfl⟩ : ∃ (p : Fin 4096) (q : Fin 4), x = ix2 p q := ⟨x 0, x 1, eq_ix2 x⟩
  have he : r0_7.emb (ix2 p q) = ix2 p (⟨4 + q.val, by have := q.isLt; omega⟩ : Fin 8) :=
    funext fun a => Fin.ext (by
      match a with
      | ⟨0, _⟩ => show 0 + 1 * p.val = p.val; omega
      | ⟨1, _⟩ => show 4 + 1 * q.val = 4 + q.val; omega)
  rw [he]
  show _ = state (rowOf x0 p) (mat x1) (mat x2) (vec x3) (vec x4) ⟨4 + q.val, _⟩
  rw [state_cell]
  exact congrFun (Rows.cell_row x0 x1 x2 x3 x4 p) q

/-- The store into columns 0–3 writes the new hidden state. -/
theorem piece_hidden (x : S4096x4.Idx) : k0_pay4 x0 x1 x2 x3 x4 x = stateBlock x0 x1 x2 x3 x4 (r0_6.emb x) := by
  obtain ⟨p, q, rfl⟩ : ∃ (p : Fin 4096) (q : Fin 4), x = ix2 p q := ⟨x 0, x 1, eq_ix2 x⟩
  have he : r0_6.emb (ix2 p q) = ix2 p (⟨q.val, by have := q.isLt; omega⟩ : Fin 8) :=
    funext fun a => Fin.ext (by
      match a with
      | ⟨0, _⟩ => show 0 + 1 * p.val = p.val; omega
      | ⟨1, _⟩ => show 0 + 1 * q.val = q.val; omega)
  rw [he]
  show _ = state (rowOf x0 p) (mat x1) (mat x2) (vec x3) (vec x4) ⟨q.val, _⟩
  rw [state_hidden]
  exact congrFun (Rows.hidden_row x0 x1 x2 x3 x4 p) q

/-- The two stores tile the block, and each writes its columns of `stateBlock`: the block after the body is `stateBlock`. -/
theorem out8_eq (y : S4096x8.Idx) : out0_8 x0 x1 x2 x3 x4 x5 x6 y = stateBlock x0 x1 x2 x3 x4 y := by
  unfold out0_8
  simp only [View.ld_unit_zero (S := S4096x12) hz2, View.ld_unit_zero (S := S16x4) hz2, View.ld_unit_zero (S := S16) hz1]
  refine View.canon_apply_of_pieces (Val := Elt Ideal) (stateBlock x0 x1 x2 x3 x4) _ ?_ y (cover0_8 _ _ y)
  intro pc hpc
  rcases List.mem_cons.mp hpc with rfl | hpc
  · exact fun x => piece_cell x0 x1 x2 x3 x4 x
  rcases List.mem_cons.mp hpc with rfl | hpc
  · exact fun x => piece_hidden x0 x1 x2 x3 x4 x
  nomatch hpc

/-- What the point leaves in the second result's block, at (p, q), is the specification's second array at the entry of
    row 4096·T + p under it. -/
theorem point_state (h0 : ∀ (p : Fin 4096) (k : Fin 12), x0 (ix2 p k) = A0 (ix2 (⟨T * 4096 + p.val, by have := p.isLt; omega⟩ : Fin 4194304) k))
    (h1 : x1 = A1) (h2 : x2 = A2) (h3 : x3 = A3) (h4 : x4 = A4)
    (p : Fin 4096) (q : Fin 8) (i : S4194304x8.Idx) (hi0 : (i 0).val = T * 4096 + p.val) (hi1 : (i 1).val = q.val) :
    out0_8 x0 x1 x2 x3 x4 x5 x6 (ix2 p q) = stateArray A0 A1 A2 A3 A4 i := by
  subst h1 h2 h3 h4
  have hb : T * 4096 + p.val < 4194304 := by have := p.isLt; omega
  obtain ⟨r, q', rfl⟩ : ∃ (r : Fin 4194304) (q' : Fin 8), i = ix2 r q' := ⟨i 0, i 1, eq_ix2 i⟩
  have hr : r = ⟨T * 4096 + p.val, hb⟩ := Fin.ext hi0
  have hq : q' = q := Fin.ext hi1
  subst hr hq
  rw [out8_eq, stateArray_apply]
  show state (rowOf x0 p) (mat x1) (mat x2) (vec x3) (vec x4) q' = _
  rw [block_row x0 A0 T hT h0 p]

end point

/-! ## The grid -/

variable (m : (ℓ : Loc nD τ sig) → Buf (Elt Ideal) ℓ) (ρ : Dev nD → PrngReg)

/-- The printed index maps, decided over the 1024 points: the input window and the two output windows sit at block
    (t, 0) at point t; the six weight and bias windows sit at block 0 at every point. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem point_lt (t : Fin cfg0.N) : t.val < 1024 := lt_of_lt_of_eq t.isLt N_0

/-- The input window's block at point t is rows 4096·t … 4096·t + 4095 of the input array. -/
theorem iblk0_apply (c : Dev nD) (t : Fin cfg0.N) (p : Fin 4096) (k : Fin 12) :
    (iblk m c 0 t : Vec Ideal S4096x12 .f32) (ix2 p k)
      = (V m c main_arg0 : S4194304x12.Idx → EReal)
          (ix2 (⟨t.val * 4096 + p.val, by have := p.isLt; have := point_lt t; omega⟩ : Fin 4194304) k) := by
  obtain ⟨e0, e1, -⟩ := idx_facts t
  unfold iblk
  rw [View.read_apply]
  show V m c main_arg0 _ = V m c main_arg0 _
  congr 1
  funext a; apply Fin.ext
  match a with
  | ⟨0, _⟩ => show win0_0.index t (0 : Fin 2) * 4096 + 1 * p.val = t.val * 4096 + p.val; rw [e0]; omega
  | ⟨1, _⟩ => show win0_0.index t (1 : Fin 2) * 12 + 1 * k.val = k.val; rw [e1]; omega

/-- Window 1's block is its whole array at every point. -/
theorem iblk1_eq (c : Dev nD) (t : Fin cfg0.N) :
    (iblk m c 1 t : Vec Ideal S16x4 .f32) = (V m c main_arg1 : S16x4.Idx → EReal) := by
  obtain ⟨-, -, e0, e1, -⟩ := idx_facts t
  funext x
  unfold iblk
  rw [View.read_apply]
  show V m c main_arg1 _ = V m c main_arg1 x
  congr 1
  funext a; apply Fin.ext
  match a with
  | ⟨0, _⟩ => show win0_1.index t (0 : Fin 2) * 16 + 1 * (x 0).val = (x 0).val; rw [e0]; omega
  | ⟨1, _⟩ => show win0_1.index t (1 : Fin 2) * 4 + 1 * (x 1).val = (x 1).val; rw [e1]; omega

/-- Window 2's block is its whole array at every point. -/
theorem iblk2_eq (c : Dev nD) (t : Fin cfg0.N) :
    (iblk m c 2 t : Vec Ideal S16x4 .f32) = (V m c main_arg2 : S16x4.Idx → EReal) := by
  obtain ⟨-, -, -, -, e0, e1, -⟩ := idx_facts t
  funext x
  unfold iblk
  rw [View.read_apply]
  show V m c main_arg2 _ = V m c main_arg2 x
  congr 1
  funext a; apply Fin.ext
  match a with
  | ⟨0, _⟩ => show win0_2.index t (0 : Fin 2) * 16 + 1 * (x 0).val = (x 0).val; rw [e0]; omega
  | ⟨1, _⟩ => show win0_2.index t (1 : Fin 2) * 4 + 1 * (x 1).val = (x 1).val; rw [e1]; omega

/-- Window 3's block is its whole array at every point. -/
theorem iblk3_eq (c : Dev nD) (t : Fin cfg0.N) :
    (iblk m c 3 t : Vec Ideal S16 .f32) = (V m c main_arg3 : S16.Idx → EReal) := by
  obtain ⟨-, -, -, -, -, -, e0, -⟩ := idx_facts t
  funext x
  unfold iblk
  rw [View.read_apply]
  show V m c main_arg3 _ = V m c main_arg3 x
  congr 1
  funext a; apply Fin.ext
  match a with
  | ⟨0, _⟩ => show win0_3.index t (0 : Fin 1) * 16 + 1 * (x 0).val = (x 0).val; rw [e0]; omega

/-- Window 4's block is its whole array at every point. -/
theorem iblk4_eq (c : Dev nD) (t : Fin cfg0.N) :
    (iblk m c 4 t : Vec Ideal S16 .f32) = (V m c main_arg4 : S16.Idx → EReal) := by
  obtain ⟨-, -, -, -, -, -, -, e0, -⟩ := idx_facts t
  funext x
  unfold iblk
  rw [View.read_apply]
  show V m c main_arg4 _ = V m c main_arg4 x
  congr 1
  funext a; apply Fin.ext
  match a with
  | ⟨0, _⟩ => show win0_4.index t (0 : Fin 1) * 16 + 1 * (x 0).val = (x 0).val; rw [e0]; omega

/-- Window 5's block is its whole array at every point. -/
theorem iblk5_eq (c : Dev nD) (t : Fin cfg0.N) :
    (iblk m c 5 t : Vec Ideal S2x4 .f32) = (V m c main_arg5 : S2x4.Idx → EReal) := by
  obtain ⟨-, -, -, -, -, -, -, -, e0, e1, -⟩ := idx_facts t
  funext x
  unfold iblk
  rw [View.read_apply]
  show V m c main_arg5 _ = V m c main_arg5 x
  congr 1
  funext a; apply Fin.ext
  match a with
  | ⟨0, _⟩ => show win0_5.index t (0 : Fin 2) * 2 + 1 * (x 0).val = (x 0).val; rw [e0]; omega
  | ⟨1, _⟩ => show win0_5.index t (1 : Fin 2) * 4 + 1 * (x 1).val = (x 1).val; rw [e1]; omega

/-- Window 6's block is its whole array at every point. -/
theorem iblk6_eq (c : Dev nD) (t : Fin cfg0.N) :
    (iblk m c 6 t : Vec Ideal S2 .f32) = (V m c main_arg6 : S2.Idx → EReal) := by
  obtain ⟨-, -, -, -, -, -, -, -, -, -, e0, -⟩ := idx_facts t
  funext x
  unfold iblk
  rw [View.read_apply]
  show V m c main_arg6 _ = V m c main_arg6 x
  congr 1
  funext a; apply Fin.ext
  match a with
  | ⟨0, _⟩ => show win0_6.index t (0 : Fin 1) * 2 + 1 * (x 0).val = (x 0).val; rw [e0]; omega

/-- WHAT POINT t WRITES BACK to the first result is block t of the specification's first array of the argument arrays. -/
theorem flushed7_eq (c : Dev nD) (t : Fin cfg0.N) :
    (dats m 0 c).flushed 7 t = ((cfg0.win 7).blk t).view.read (Elt Ideal)
      (actionArray (V m c main_arg0) (V m c main_arg1) (V m c main_arg2) (V m c main_arg3) (V m c main_arg4)
        (V m c main_arg5) (V m c main_arg6)) := by
  obtain ⟨-, -, -, -, -, -, -, -, -, -, -, e0, e1, -⟩ := idx_facts t
  rw [Value.flushed7]
  funext j
  obtain ⟨p, a, rfl⟩ : ∃ (p : Fin 4096) (a : Fin 2), j = ix2 p a := ⟨j 0, j 1, eq_ix2 j⟩
  show out0_7 (iblk m c 0 t) (iblk m c 1 t) (iblk m c 2 t) (iblk m c 3 t) (iblk m c 4 t) (iblk m c 5 t) (iblk m c 6 t) (ix2 p a)
    = actionArray (V m c main_arg0) (V m c main_arg1) (V m c main_arg2) (V m c main_arg3) (V m c main_arg4)
        (V m c main_arg5) (V m c main_arg6) (((cfg0.win 7).blk t).view.emb (ix2 p a))
  refine point_action (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4) (V m c main_arg5) (V m c main_arg6)
    t.val (point_lt t) (iblk0_apply m c t) (iblk1_eq m c t) (iblk2_eq m c t) (iblk3_eq m c t) (iblk4_eq m c t)
    (iblk5_eq m c t) (iblk6_eq m c t) p a _ ?_ ?_
  · show win0_7.index t (0 : Fin 2) * 4096 + 1 * p.val = t.val * 4096 + p.val
    rw [e0]; omega
  · show win0_7.index t (1 : Fin 2) * 2 + 1 * a.val = a.val
    rw [e1]; omega

/-- WHAT POINT t WRITES BACK to the second result is block t of the specification's second array. -/
theorem flushed8_eq (c : Dev nD) (t : Fin cfg0.N) :
    (dats m 0 c).flushed 8 t = ((cfg0.win 8).blk t).view.read (Elt Ideal)
      (stateArray (V m c main_arg0) (V m c main_arg1) (V m c main_arg2) (V m c main_arg3) (V m c main_arg4)) := by
  obtain ⟨-, -, -, -, -, -, -, -, -, -, -, -, -, e0, e1⟩ := idx_facts t
  rw [Value.flushed8]
  funext j
  obtain ⟨p, q, rfl⟩ : ∃ (p : Fin 4096) (q : Fin 8), j = ix2 p q := ⟨j 0, j 1, eq_ix2 j⟩
  show out0_8 (iblk m c 0 t) (iblk m c 1 t) (iblk m c 2 t) (iblk m c 3 t) (iblk m c 4 t) (iblk m c 5 t) (iblk m c 6 t) (ix2 p q)
    = stateArray (V m c main_arg0) (V m c main_arg1) (V m c main_arg2) (V m c main_arg3) (V m c main_arg4)
        (((cfg0.win 8).blk t).view.emb (ix2 p q))
  refine point_state (iblk m c 0 t) (iblk m c 1 t) (iblk m c 2 t) (iblk m c 3 t) (iblk m c 4 t) (iblk m c 5 t) (iblk m c 6 t)
    (V m c main_arg0) (V m c main_arg1) (V m c main_arg2) (V m c main_arg3) (V m c main_arg4)
    t.val (point_lt t) (iblk0_apply m c t) (iblk1_eq m c t) (iblk2_eq m c t) (iblk3_eq m c t) (iblk4_eq m c t) p q _ ?_ ?_
  · show win0_8.index t (0 : Fin 2) * 4096 + 1 * p.val = t.val * 4096 + p.val
    rw [e0]; omega
  · show win0_8.index t (1 : Fin 2) * 8 + 1 * q.val = q.val
    rw [e1]; omega

/-- An index of the array is in point t's block iff each coordinate is in the block's range on its axis. -/
theorem mem_blk7 (t : Fin cfg0.N) (i : S4194304x2.Idx) :
    i ∈ ((cfg0.win 7).blk t).view.set ↔ ∀ a : Fin 2, win0_7.index t a * S4096x2.size a ≤ (i a).val
      ∧ (i a).val < win0_7.index t a * S4096x2.size a + S4096x2.size a := by
  show i ∈ ((View.whole main_v0_0).slice (win0_7.rect t)).set ↔ _
  rw [View.set_slice_whole, Rect.mem_set_unit]
  exact Iff.rfl

/-- Row r lies in the block of point r / 4096: the 1024 blocks tile the array. -/
theorem cover7 (i : S4194304x2.Idx) :
    ∃ t : Fin cfg0.N, (cfg0.win 7).flush t = true ∧ i ∈ ((cfg0.win 7).blk t).view.set := by
  have hi0 : (i 0).val < 4194304 := (i 0).isLt
  have hi1 : (i 1).val < 2 := (i 1).isLt
  obtain ⟨t, ht⟩ : ∃ t : Fin cfg0.N, t.val = (i 0).val / 4096 :=
    ⟨⟨(i 0).val / 4096, lt_of_lt_of_eq (by omega : (i 0).val / 4096 < 1024) N_0.symm⟩, rfl⟩
  obtain ⟨-, -, -, -, -, -, -, -, -, -, -, e0, e1, -⟩ := idx_facts t
  refine ⟨t, flush0_7 t, ?_⟩
  rw [mem_blk7]
  intro a
  match a with
  | ⟨0, _⟩ =>
    show win0_7.index t (0 : Fin 2) * 4096 ≤ (i 0).val ∧ (i 0).val < win0_7.index t (0 : Fin 2) * 4096 + 4096
    rw [e0, ht]; omega
  | ⟨1, _⟩ =>
    show win0_7.index t (1 : Fin 2) * 2 ≤ (i 1).val ∧ (i 1).val < win0_7.index t (1 : Fin 2) * 2 + 2
    rw [e1]; omega

/-- An index of the array is in point t's block iff each coordinate is in the block's range on its axis. -/
theorem mem_blk8 (t : Fin cfg0.N) (i : S4194304x8.Idx) :
    i ∈ ((cfg0.win 8).blk t).view.set ↔ ∀ a : Fin 2, win0_8.index t a * S4096x8.size a ≤ (i a).val
      ∧ (i a).val < win0_8.index t a * S4096x8.size a + S4096x8.size a := by
  show i ∈ ((View.whole main_v0_1).slice (win0_8.rect t)).set ↔ _
  rw [View.set_slice_whole, Rect.mem_set_unit]
  exact Iff.rfl

/-- Row r lies in the block of point r / 4096: the 1024 blocks tile the array. -/
theorem cover8 (i : S4194304x8.Idx) :
    ∃ t : Fin cfg0.N, (cfg0.win 8).flush t = true ∧ i ∈ ((cfg0.win 8).blk t).view.set := by
  have hi0 : (i 0).val < 4194304 := (i 0).isLt
  have hi1 : (i 1).val < 8 := (i 1).isLt
  obtain ⟨t, ht⟩ : ∃ t : Fin cfg0.N, t.val = (i 0).val / 4096 :=
    ⟨⟨(i 0).val / 4096, lt_of_lt_of_eq (by omega : (i 0).val / 4096 < 1024) N_0.symm⟩, rfl⟩
  obtain ⟨-, -, -, -, -, -, -, -, -, -, -, -, -, e0, e1⟩ := idx_facts t
  refine ⟨t, flush0_8 t, ?_⟩
  rw [mem_blk8]
  intro a
  match a with
  | ⟨0, _⟩ =>
    show win0_8.index t (0 : Fin 2) * 4096 ≤ (i 0).val ∧ (i 0).val < win0_8.index t (0 : Fin 2) * 4096 + 4096
    rw [e0, ht]; omega
  | ⟨1, _⟩ =>
    show win0_8.index t (1 : Fin 2) * 8 ≤ (i 1).val ∧ (i 1).val < win0_8.index t (1 : Fin 2) * 8 + 8
    rw [e1]; omega

/-- THE FIRST RESULT ARRAY after the run is the specification's first array of the argument arrays. -/
theorem final7 (c : Dev nD) : (dats m 0 c).arrAt 7 cfg0.N
    = actionArray (V m c main_arg0) (V m c main_arg1) (V m c main_arg2) (V m c main_arg3) (V m c main_arg4)
        (V m c main_arg5) (V m c main_arg6) :=
  (dats m 0 c).arrAt_eq_of_cover 7 _ (fun t _ => flushed7_eq m c t) cover7

/-- THE SECOND RESULT ARRAY after the run is the specification's second array of the argument arrays. -/
theorem final8 (c : Dev nD) : (dats m 0 c).arrAt 8 cfg0.N
    = stateArray (V m c main_arg0) (V m c main_arg1) (V m c main_arg2) (V m c main_arg3) (V m c main_arg4) :=
  (dats m 0 c).arrAt_eq_of_cover 8 _ (fun t _ => flushed8_eq m c t) cover8

/-- The kernel's run, read: both result arrays at the specification's functions of the arguments, the arguments unchanged. -/
theorem run : θ_run defs (onTc (τ := τ) (main (F := Ideal))) ⟨m, fun _ => 0, ρ⟩ fun r => ∀ c : Dev nD,
      r.2.mem ((c : Thread nD τ).loc main_v0_0)
        = actionArray (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c : Thread nD τ).loc main_v0_1)
        = stateArray (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.KernelIdeal.Arrays

end
-- ==== Proof.ReferenceRows.lean ====
/-
  The reference's arithmetic, read one row at a time.

  The reference works on all 4194304 rows at once. Row r of each value it computes depends only on row r of the input
  and on the weights and biases, and is the LSTM step of that row: the sixteen gate pre-activations, the new cell state,
  the new hidden state, the two logits, the softmax of the logits; the second result's row is the new hidden state
  followed by the new cell state. The reference writes the logistic function out as 1 / (1 + e^(−z)), spreads a bias or a
  row statistic by two broadcasts, and reduces with the host's maximum and sum; each is read as the same function of
  the row as the kernel's spelling.
-/
import proofs.«181186_j41807211659790_2_alg».proof.Proof.Gen.ReferenceIdeal.Read
import proofs.«181186_j41807211659790_2_alg».proof.Proof.LstmRow
import proofs.«181186_j41807211659790_2_alg».proof.Proof.LstmArrays
import proofs.«181186_j41807211659790_2_alg».proof.Proof.LibRowSpread
import proofs.«181186_j41807211659790_2_alg».proof.Proof.LibMaxReduce

noncomputable section

namespace Cert.ReferenceIdeal.Rows

open Cert.ReferenceIdeal Cert.ReferenceIdeal.Gen Cert.ReferenceIdeal.Read Idealize.ShloMosaic Idealize.ShloMosaic.ValueIdx
open RowRead Cert.LibRowSpread Cert.LibMaxReduce Cert.LstmRow

variable (X : (⟨S4194304x12, .f32⟩ : BufTy).Contents (Elt Ideal)) (W1 W2 : (⟨S16x4, .f32⟩ : BufTy).Contents (Elt Ideal))
  (B1 B2 : (⟨S16, .f32⟩ : BufTy).Contents (Elt Ideal)) (W3 : (⟨S2x4, .f32⟩ : BufTy).Contents (Elt Ideal))
  (B3 : (⟨S2, .f32⟩ : BufTy).Contents (Elt Ideal)) (r : Fin 4194304)

/-- Row r of the gate pre-activations. -/
theorem gates_row : rowOf (val_main_v13 (F := Ideal) X W1 W2 B1 B2) r = gate (rowOf X r) (mat W1) (mat W2) (vec B1) (vec B2) := by
  unfold val_main_v13 val_main_v10 val_main_v7 val_main_v4 val_main_v9 val_main_v12 val_main_v11 val_main_v6 val_main_v5
    val_main_v3 val_main_v8 val_main_v2 val_main_v0
  rw [rowOf_addf, rowOf_addf, rowOf_addf, rowOf_dotGeneral dot_S4194304x4_S4x16_S4194304x16_1_0_0_1_n_n rfl,
    rowOf_dotGeneral dot_S4194304x4_S4x16_S4194304x16_1_0_0_1_n_n rfl, rowOf_bias_bcast, rowOf_bias_bcast,
    mat_transpose, mat_transpose, rowOf_slice (N := 12) (n := 4) 8 (by omega), rowOf_slice_front (N := 12) (n := 4) (by omega)]
  rfl

/-- The reference's four splats of the constant one are the number one everywhere. -/
theorem one20 (i : S4194304x4.Idx) : val_main_v20 (F := Ideal) i = 1 :=
  (splat_const_apply bcast_S_S4194304x4 0x3F800000#32 i).trans Ideal.ofBits_one_f32
theorem one22 (i : S4194304x4.Idx) : val_main_v22 (F := Ideal) i = 1 :=
  (splat_const_apply bcast_S_S4194304x4 0x3F800000#32 i).trans Ideal.ofBits_one_f32
theorem one26 (i : S4194304x4.Idx) : val_main_v26 (F := Ideal) i = 1 :=
  (splat_const_apply bcast_S_S4194304x4 0x3F800000#32 i).trans Ideal.ofBits_one_f32
theorem one28 (i : S4194304x4.Idx) : val_main_v28 (F := Ideal) i = 1 :=
  (splat_const_apply bcast_S_S4194304x4 0x3F800000#32 i).trans Ideal.ofBits_one_f32
theorem one33 (i : S4194304x4.Idx) : val_main_v33 (F := Ideal) i = 1 :=
  (splat_const_apply bcast_S_S4194304x4 0x3F800000#32 i).trans Ideal.ofBits_one_f32
theorem one35 (i : S4194304x4.Idx) : val_main_v35 (F := Ideal) i = 1 :=
  (splat_const_apply bcast_S_S4194304x4 0x3F800000#32 i).trans Ideal.ofBits_one_f32

/-- Row r of the new cell state. -/
theorem cell_row : rowOf (val_main_v39 (F := Ideal) X W1 W2 B1 B2) r = cell (rowOf X r) (mat W1) (mat W2) (vec B1) (vec B2) := by
  unfold val_main_v39 val_main_v37 val_main_v38 val_main_v29 val_main_v27 val_main_v25 val_main_v24 val_main_v23 val_main_v21
    val_main_v19 val_main_v18 val_main_v30 val_main_v15 val_main_v14 val_main_v16 val_main_v1
  rw [rowOf_addf, rowOf_mulf, rowOf_mulf, rowOf_hostLogistic _ _ _ _ one28 one26, rowOf_hostLogistic _ _ _ _ one22 one20,
    rowOf_hostTanh, rowOf_slice (N := 16) (n := 4) 4 (by omega), rowOf_slice (N := 16) (n := 4) 8 (by omega),
    rowOf_slice_front (N := 16) (n := 4) (by omega), rowOf_slice (N := 12) (n := 4) 4 (by omega), gates_row]
  rfl

/-- Row r of the new hidden state. -/
theorem hidden_row : rowOf (val_main_v41 (F := Ideal) X W1 W2 B1 B2) r = hidden (rowOf X r) (mat W1) (mat W2) (vec B1) (vec B2) := by
  unfold val_main_v41 val_main_v40 val_main_v36 val_main_v34 val_main_v32 val_main_v31 val_main_v17
  rw [rowOf_mulf, rowOf_hostLogistic _ _ _ _ one35 one33, rowOf_hostTanh, rowOf_slice (N := 16) (n := 4) 12 (by omega),
    gates_row, cell_row]
  rfl

/-- Row r of the logits. -/
theorem logit_row : rowOf (val_main_v46 (F := Ideal) X W1 W2 B1 B2 W3 B3) r
    = logit (rowOf X r) (mat W1) (mat W2) (vec B1) (vec B2) (mat W3) (vec B3) := by
  unfold val_main_v46 val_main_v43 val_main_v42 val_main_v45 val_main_v44
  rw [rowOf_addf, rowOf_dotGeneral dot_S4194304x4_S4x2_S4194304x2_1_0_0_1_n_n rfl, rowOf_bias_bcast, mat_transpose, hidden_row]
  rfl

/-- The value row r's softmax subtracts, spread over the two columns: the row's running maximum from the start value,
    joined with the start value once more. -/
theorem top_entry (k : Fin 2) : val_main_v51 (F := Ideal) X W1 W2 B1 B2 W3 B3 (ix2 r k)
    = top (rowOf X r) (mat W1) (mat W2) (vec B1) (vec B2) (mat W3) (vec B3) start := by
  have h48 : val_main_v48 (F := Ideal) (ix1 r) = start := splat_const_apply bcast_S_S4194304 0xFF800000#32 (ix1 r)
  have h47 : val_main_v47 (F := Ideal) X W1 W2 B1 B2 W3 B3 (ix1 r)
      = foldMax start (logit (rowOf X r) (mat W1) (mat W2) (vec B1) (vec B2) (mat W3) (vec B3)) := by
    unfold val_main_v47
    generalize hy : val_main_v46 (F := Ideal) X W1 W2 B1 B2 W3 B3 = y
    have hrow : rowOf y r = logit (rowOf X r) (mat W1) (mat W2) (vec B1) (vec B2) (mat W3) (vec B3) := by
      rw [← hy]; exact logit_row X W1 W2 B1 B2 W3 B3 r
    rw [← hrow]
    exact hostReduce_maximumf_lastAxis_apply y _ reducesTo_S4194304x2_S4194304_d1 (by decide) h_S_ r
  unfold val_main_v51 val_main_v50
  refine (column_bcast_apply _ bcast_S4194304_S4194304x1_0 bcast_S4194304x1_S4194304x2_0_1 r k).trans ?_
  rw [val_main_v49_apply, h48, h47]
  rfl

/-- The exponential of a logit's distance below that value. -/
theorem exp_entry (k : Fin 2) : val_main_v53 (F := Ideal) X W1 W2 B1 B2 W3 B3 (ix2 r k)
    = Ideal.exp (logit (rowOf X r) (mat W1) (mat W2) (vec B1) (vec B2) (mat W3) (vec B3) k
        - top (rowOf X r) (mat W1) (mat W2) (vec B1) (vec B2) (mat W3) (vec B3) start) := by
  have hl : val_main_v46 (F := Ideal) X W1 W2 B1 B2 W3 B3 (ix2 r k)
      = logit (rowOf X r) (mat W1) (mat W2) (vec B1) (vec B2) (mat W3) (vec B3) k :=
    congrFun (logit_row X W1 W2 B1 B2 W3 B3 r) k
  rw [val_main_v53_apply, val_main_v52_apply, top_entry, hl]
  rfl

/-- Row r's sum of those exponentials, spread over the two columns: the host's sum starts from zero. -/
theorem sum_entry (a : Fin 2) : val_main_v56 (F := Ideal) X W1 W2 B1 B2 W3 B3 (ix2 r a)
    = ∑ k : Fin 2, Ideal.exp (logit (rowOf X r) (mat W1) (mat W2) (vec B1) (vec B2) (mat W3) (vec B3) k
        - top (rowOf X r) (mat W1) (mat W2) (vec B1) (vec B2) (mat W3) (vec B3) start) := by
  unfold val_main_v56 val_main_v55
  refine (column_bcast_apply _ bcast_S4194304_S4194304x1_0 bcast_S4194304x1_S4194304x2_0_1 r a).trans ?_
  rw [val_main_v54_apply, val_main_cst_7_apply, Ideal.ofBits_def, Ideal.ofBits_zero_f32, zero_add]
  refine Finset.sum_congr rfl fun k _ => ?_
  have hi : idx_main_v54 (ix1 r) k = ix2 r k :=
    funext fun d => Fin.ext (by match d with | ⟨0, _⟩ => rfl | ⟨1, _⟩ => rfl)
  rw [hi, exp_entry]

/-- The first result at (r, a) is the softmax of row r's logits. -/
theorem action_entry (a : Fin 2) : val_main_v57 (F := Ideal) X W1 W2 B1 B2 W3 B3 (ix2 r a)
    = action (rowOf X r) (mat W1) (mat W2) (vec B1) (vec B2) (mat W3) (vec B3) start a := by
  rw [val_main_v57_apply, exp_entry, sum_entry]
  rfl

/-- The second result at (r, q): the new hidden state set beside the new cell state. -/
theorem state_entry (q : Fin 8) : val_main_v58 (F := Ideal) X W1 W2 B1 B2 (ix2 r q)
    = state (rowOf X r) (mat W1) (mat W2) (vec B1) (vec B2) q := by
  unfold val_main_v58
  refine (congrFun (rowOf_beside _ _ concatenates_S4194304x4_S4194304x4_S4194304x8_d1 rfl r) q).trans ?_
  rw [hidden_row, cell_row]
  rfl

/-- The reference's first result is the specification's first array. -/
theorem result0_eq : val_main_v57 (F := Ideal) X W1 W2 B1 B2 W3 B3 = actionArray X W1 W2 B1 B2 W3 B3 := by
  funext i
  obtain ⟨r, a, rfl⟩ : ∃ (r : Fin 4194304) (a : Fin 2), i = ix2 r a := ⟨i 0, i 1, eq_ix2 i⟩
  exact action_entry X W1 W2 B1 B2 W3 B3 r a

/-- The reference's second result is the specification's second array. -/
theorem result1_eq : val_main_v58 (F := Ideal) X W1 W2 B1 B2 = stateArray X W1 W2 B1 B2 := by
  funext i
  obtain ⟨r, q, rfl⟩ : ∃ (r : Fin 4194304) (q : Fin 8), i = ix2 r q := ⟨i 0, i 1, eq_ix2 i⟩
  exact state_entry X W1 W2 B1 B2 r q

end Cert.ReferenceIdeal.Rows

end
-- ==== Proof.lean ====
/-
  One step of an LSTM cell, a linear layer and a softmax over 4194304 independent rows: the kernel against its reference,
  on the extended reals.

  Both programs compute, for every row x = [h, c, obs] of the input,
      gates  = obs·W₁ᵀ + b₁ + h·W₂ᵀ + b₂,      c' = σ(f)·c + σ(i)·tanh(g),      h' = σ(o)·tanh(c'),
      logits = h'·W₃ᵀ + b₃,                      action = softmax(logits),
  and return (action, [h', c']). The kernel walks the rows in 1024 blocks of 4096, one grid point each, with the weights
  and biases resident; the reference takes all rows at once. The two differ only in spelling: the kernel's matrix unit
  against the host's dot_general (one sum over k either way), a bias reshaped and broadcast against two broadcasts, the
  logistic function as one operation against 1 / (1 + e^(−z)) written out — which is what the logistic function IS on the
  extended reals —, row statistics kept as a column by a reshape against a broadcast, and two stores side by side against
  a concatenate. Term for term the sums are added in the same order, so no law of arithmetic is needed and nothing has
  to be finite: the precondition is never opened.

  Proof/LstmRow.lean states the step for one row and Proof/LstmArrays.lean the two results as whole arrays;
  Proof/KernelRows.lean and Proof/ReferenceRows.lean read each program's values one row at a time as that step;
  Proof/KernelArray.lean puts the kernel's 1024 written blocks together into the whole arrays. Here the five claims are
  assembled: the three frames from the programs' runs, the idealization (no rewrite was applied), and the equality of the
  two idealized programs' results.
-/
import proofs.«181186_j41807211659790_2_alg».proof.Defs
import proofs.«181186_j41807211659790_2_alg».proof.Proof.Gen.Kernel
import proofs.«181186_j41807211659790_2_alg».proof.Proof.Gen.Kernel.Skeleton
import proofs.«181186_j41807211659790_2_alg».proof.Proof.Gen.Kernel.Launch
import proofs.«181186_j41807211659790_2_alg».proof.Proof.Gen.Kernel.Points
import proofs.«181186_j41807211659790_2_alg».proof.Proof.Gen.Kernel.Frame
import proofs.«181186_j41807211659790_2_alg».proof.Proof.Gen.KernelIdeal
import proofs.«181186_j41807211659790_2_alg».proof.Proof.Gen.KernelIdeal.Skeleton
import proofs.«181186_j41807211659790_2_alg».proof.Proof.Gen.KernelIdeal.Launch
import proofs.«181186_j41807211659790_2_alg».proof.Proof.Gen.KernelIdeal.Points
import proofs.«181186_j41807211659790_2_alg».proof.Proof.Gen.KernelIdeal.Frame
import proofs.«181186_j41807211659790_2_alg».proof.Proof.Gen.ReferenceIdeal
import proofs.«181186_j41807211659790_2_alg».proof.Proof.Gen.Pre_finite_inputs
import proofs.«181186_j41807211659790_2_alg».proof.Proof.Gen.KernelIdeal.Value
import proofs.«181186_j41807211659790_2_alg».proof.Proof.Gen.ReferenceIdeal.Run
import proofs.«181186_j41807211659790_2_alg».proof.Proof.Gen.ReferenceIdeal.Read
import proofs.«181186_j41807211659790_2_alg».proof.Proof.KernelArray
import proofs.«181186_j41807211659790_2_alg».proof.Proof.ReferenceRows
import Idealize.ShloMosaic.Adequacy
import Idealize.ShloMosaic.Init

noncomputable section

namespace Cert.Proof

open Idealize.ShloMosaic Idealize.ShloMosaic.TcCoe Idealize.SL.Sem Cert.LstmRow

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with the results forgotten. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the seven arguments, the idealized kernel ends with its two result arrays at the
    specification's two arrays of the arguments (the blocks put together), and the idealized reference at the same two
    arrays (its staged values read row by row). -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  refine ⟨?_, ?_, (h c).2.2⟩
  · rw [(h c).1, Cert.ReferenceIdeal.Read.val_main_v57_eq, Cert.ReferenceIdeal.Rows.result0_eq, e0, e1, e2, e3, e4, e5, e6]
  · rw [(h c).2.1, Cert.ReferenceIdeal.Read.val_main_v58_eq, Cert.ReferenceIdeal.Rows.result1_eq, e0, e1, e2, e3, e4]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
